-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_arg10 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S2000x64 : Shape := ⟨2, ![2000, 64]⟩

abbrev nBuf : Space → Nat
  | .hbm => 111
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x64, .f32⟩
  | .hbm, ⟨42, _⟩ => ⟨S50000x64, .f32⟩
  | .hbm, ⟨43, _⟩ => ⟨S64x64, .f32⟩
  | .hbm, ⟨44, _⟩ => ⟨S64x64, .f32⟩
  | .hbm, ⟨45, _⟩ => ⟨S1x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S_, .f32⟩
  | .hbm, ⟨61, _⟩ => ⟨S800000, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x64, .f32⟩
  | .hbm, ⟨74, _⟩ => ⟨S50000x64, .f32⟩
  | .hbm, ⟨75, _⟩ => ⟨S64x64, .f32⟩
  | .hbm, ⟨76, _⟩ => ⟨S64x64, .f32⟩
  | .hbm, ⟨77, _⟩ => ⟨S1x64, .f32⟩
  | .hbm, ⟨78, _⟩ => ⟨S50000x64, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x64, .f32⟩
  | .hbm, ⟨88, _⟩ => ⟨S_, .f32⟩
  | .hbm, ⟨89, _⟩ => ⟨S50000x64, .f32⟩
  | .hbm, ⟨90, _⟩ => ⟨S800000x1, .i32⟩
  | .hbm, ⟨91, _⟩ => ⟨S50000x64, .f32⟩
  | .hbm, ⟨92, _⟩ => ⟨S_, .f32⟩
  | .hbm, ⟨93, _⟩ => ⟨S800000, .f32⟩
  | .hbm, ⟨94, _⟩ => ⟨S_, .f32⟩
  | .hbm, ⟨95, _⟩ => ⟨S50000, .f32⟩
  | .hbm, ⟨96, _⟩ => ⟨S800000x1, .i32⟩
  | .hbm, ⟨97, _⟩ => ⟨S50000, .f32⟩
  | .hbm, ⟨98, _⟩ => ⟨S_, .f32⟩
  | .hbm, ⟨99, _⟩ => ⟨S50000, .f32⟩
  | .hbm, ⟨100, _⟩ => ⟨S50000, .f32⟩
  | .hbm, ⟨101, _⟩ => ⟨S_, .f32⟩
  | .hbm, ⟨102, _⟩ => ⟨S50000, .f32⟩
  | .hbm, ⟨103, _⟩ => ⟨S50000, .f32⟩
  | .hbm, ⟨104, _⟩ => ⟨S50000x1, .f32⟩
  | .hbm, ⟨105, _⟩ => ⟨S50000x64, .f32⟩
  | .hbm, ⟨106, _⟩ => ⟨S50000x64, .f32⟩
  | .hbm, ⟨107, _⟩ => ⟨S64x64, .f32⟩
  | .hbm, ⟨108, _⟩ => ⟨S64x64, .f32⟩
  | .hbm, ⟨109, _⟩ => ⟨S1x64, .f32⟩
  | .hbm, ⟨110, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_c_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_17 : Ref sig .tc := ⟨.hbm, 98, rfl⟩
abbrev main_v68 : Ref sig .tc := ⟨.hbm, 99, rfl⟩
abbrev main_v69 : Ref sig .tc := ⟨.hbm, 100, rfl⟩
abbrev main_cst_18 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v24) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v74) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x64, .f32⟩
  | .hbm, ⟨39, _⟩ => ⟨S50000x64, .f32⟩
  | .hbm, ⟨40, _⟩ => ⟨S64x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S64x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x64, .f32⟩
  | .hbm, ⟨75, _⟩ => ⟨S50000x64, .f32⟩
  | .hbm, ⟨76, _⟩ => ⟨S64x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S64x64, .f32⟩
  | .hbm, ⟨82, _⟩ => ⟨S50000x64, .f32⟩
  | .hbm, ⟨83, _⟩ => ⟨S50000x64, .f32⟩
  | .hbm, ⟨84, _⟩ => ⟨S_, .f32⟩
  | .hbm, ⟨85, _⟩ => ⟨S50000x64, .f32⟩
  | .hbm, ⟨86, _⟩ => ⟨S50000x64, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x64, .f32⟩
  | .hbm, ⟨96, _⟩ => ⟨S_, .f32⟩
  | .hbm, ⟨97, _⟩ => ⟨S50000x64, .f32⟩
  | .hbm, ⟨98, _⟩ => ⟨S800000x1, .i32⟩
  | .hbm, ⟨99, _⟩ => ⟨S50000x64, .f32⟩
  | .hbm, ⟨100, _⟩ => ⟨S_, .f32⟩
  | .hbm, ⟨101, _⟩ => ⟨S800000, .f32⟩
  | .hbm, ⟨102, _⟩ => ⟨S_, .f32⟩
  | .hbm, ⟨103, _⟩ => ⟨S50000, .f32⟩
  | .hbm, ⟨104, _⟩ => ⟨S800000x1, .i32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x64, .f32⟩
  | .hbm, ⟨111, _⟩ => ⟨S50000x64, .f32⟩
  | .hbm, ⟨112, _⟩ => ⟨S64x64, .f32⟩
  | .hbm, ⟨113, _⟩ => ⟨S50000x64, .f32⟩
  | .hbm, ⟨114, _⟩ => ⟨S1x64, .f32⟩
  | .hbm, ⟨115, _⟩ => ⟨S50000x64, .f32⟩
  | .hbm, ⟨116, _⟩ => ⟨S50000x64, .f32⟩
  | .hbm, ⟨117, _⟩ => ⟨S64x64, .f32⟩
  | .hbm, ⟨118, _⟩ => ⟨S50000x64, .f32⟩
  | .hbm, ⟨119, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel's run with its result named.

  @main is six segments: three stretches of host operations, each followed by a tiled region.  The buffer contents at
  the segment boundaries are a fold from the launch memory; the last boundary's contents are what the final state
  holds in every unscoped buffer.  So every weakly fair execution terminates, nothing faulting, with the result
  buffer at the last boundary's contents there and every argument array as launched.
-/
import proofs.«164951_j29798483100072_1_alg».proof.Proof.Gen.KernelIdeal.Frame

set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    last segment boundary gives it and the argument arrays as launched. -/
theorem run_out : θ_run defs (onTc (τ := τ) (main (F := F))) ⟨m, fun _ => 0, ρ⟩ (fun r => ∀ c : Dev nD,
      r.2.mem ((c.tc : Thread nD τ).loc main_v78) = W6 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v78 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.HandValue

end
-- ==== Proof.HostDefs.lean ====
/-
  The host stretches of a mean-aggregating graph network, as whole-array terms.

  Between two layers the host prepares, from the node features x (50000 × 64) and the edge list (2 × 800000, row 0 the
  sources, row 1 the destinations):

    * the sources and the destinations as vectors of 800000 entries (a row sliced off the edge list, the unit axis dropped);
    * the neighbourhood SUM  aggSum x s d : row n is the sum, over the edges whose destination is n, of the source's row of
      x — a gather of x's rows at the sources (a negative index wrapped once by the number of nodes), scattered with
      addition into a zero array at the destinations;
    * the in-degree  cnt d : entry n is the number of edges whose destination is n — ones scattered with addition into a
      zero vector at the destinations;
    * the neighbourhood MEAN  kmean x s d = aggSum x s d · (1 / max (cnt d) 1), the quotient repeated along each row.

  Each definition is the composition of the host operations exactly as the program applies them, at the ideal reading
  of floats, with the sources s and the destinations d as ARGUMENTS: the three stretches apply the same operations to
  different buffers, so one term serves all three.
-/
import proofs.«164951_j29798483100072_1_alg».proof.Proof.Gen.KernelIdeal.Launch
import Idealize.ShloMosaic.Lib.StableHlo.Run
import Idealize.ShloMosaic.PureOps.Ideal.Laws

noncomputable section

namespace Cert.KernelIdeal.HandValue

open Idealize.ShloMosaic Idealize.ShloMosaic.TcCoe
open Cert.KernelIdeal Cert.KernelIdeal.Gen

/-- The sources: row 0 of the edge list, as a vector. -/
def srcOf (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The destinations: row 1 of the edge list, as a vector. -/
def dstOf (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The neighbourhood sum: x's rows gathered at the sources (a negative source wrapped by 50000), added into a zero
    array at the destinations. -/
def aggSum (x : FVec Ideal S50000x64 .f32) (s d : (⟨S800000, .i32⟩ : BufTy).Contents (Elt Ideal)) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (Host.gather gather_S50000x64_S800000x1_S800000x64_1_0_n_n_0_1_164 x
      (broadcastInDim S800000x1 ![0] bcast_S800000_S800000x1_0
        (select
          (cmpi .slt s (broadcastInDim S800000 ![] bcast_S_S800000 (constantI S_ 32 0#32)))
          (addi s (broadcastInDim S800000 ![] bcast_S_S800000 (constantI S_ 32 50000#32)))
          s)))

/-- The in-degree: a one per edge, added into a zero vector at the destinations. -/
def cnt (d : (⟨S800000, .i32⟩ : BufTy).Contents (Elt Ideal)) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- The neighbourhood mean: the sum times the reciprocal of the in-degree raised to at least one, the reciprocal
    repeated along each row. -/
def kmean (x : FVec Ideal S50000x64 .f32) (s d : (⟨S800000, .i32⟩ : BufTy).Contents (Elt Ideal)) : FVec Ideal S50000x64 .f32 :=
  mulf (aggSum x s d)
    (broadcastInDim S50000x64 ![0, 1] bcast_S50000x1_S50000x64_0_1
      (broadcastInDim S50000x1 ![0] bcast_S50000_S50000x1_0
        (Host.divf (F := Ideal)
          (broadcastInDim S50000 ![] bcast_S_S50000 (constant (F := Ideal) S_ .f32 0x3F800000#32))
          (maximumf (cnt d)
            (broadcastInDim S50000 ![] bcast_S_S50000 (constant (F := Ideal) S_ .f32 0x3F800000#32))))))

end Cert.KernelIdeal.HandValue
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«164951_j29798483100072_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibDenseLayer.lean ====
/-
  One dense layer (two matrix products sharing an output, plus a bias row), entry by entry; generic in the extents.

  A layer takes the neighbourhood means `a` and the nodes' own features `x` (both N × K), two K × D weight matrices
  and a bias row, and gives the N × D array whose entry (n, j) is

      Σ_k a(n,k) · wl(k,j)  +  Σ_k x(n,k) · wr(k,j)  +  b(j).

  The two programs group this sum differently: one adds the bias after both products, the other between them.
  Addition of extended reals is commutative and associative without any finiteness assumption, so the two groupings
  agree everywhere.
-/
import Idealize.ShloMosaic.PureOps.Ideal.Laws
import Idealize.ShloMosaic.Lib.ValueIdx
import Idealize.ShloMosaic.Lib.Pipeline.Value
import proofs.«164951_j29798483100072_1_alg».proof.Proof.LibPlainDotFormats
import proofs.«164951_j29798483100072_1_alg».proof.Proof.LibRowLayout

noncomputable section

namespace Cert.LibDenseLayer

open Idealize.ShloMosaic Idealize.ShloMosaic.ValueIdx Cert.LibPlainDot

variable {N K D : ℕ}

/-- Entry (n, j) of a dense layer: both products, then the bias of column j. -/
def dense (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => (∑ k : Fin K, a (ix2 (i 0) k) * wl (ix2 k (i 1)) + ∑ k : Fin K, x (ix2 (i 0) k) * wr (ix2 k (i 1)))
    + b (ix2 (0 : Fin 1) (i 1))

/-- The same layer followed by the rectifier: the larger of the entry and zero (zero kept as the f32 zero word). -/
def denseRelu (a x : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => max (dense a x wl wr b i) (Ideal.ofBits .f32 0x00000000#32)

theorem dense_ix2 (a x : (⟨2, ![N, K]⟩ : Shape).Idx → EReal) (wl wr : (⟨2, ![K, D]⟩ : Shape).Idx → EReal)
    (b : (⟨2, ![1, D]⟩ : Shape).Idx → EReal) (n : Fin N) (j : Fin D) :
    dense a x wl wr b (ix2 n j)
      = (∑ k : Fin K, a (ix2 n k) * wl (ix2 k j) + ∑ k : Fin K, x (ix2 n k) * wr (ix2 k j)) + b (ix2 (0 : Fin 1) j) := rfl

/-- A vector [D] laid out as a row [1, D] by a broadcast along a new leading axis reads, at (u, j), entry j. -/
theorem bcast_vec_row_apply {α : Type} (h : (⟨1, ![D]⟩ : Shape).BroadcastsInDim ⟨2, ![1, D]⟩ (![1] : Fin 1 → Fin 2))
    (v : (⟨1, ![D]⟩ : Shape).Idx → α) (u : Fin 1) (j : Fin D) :
    broadcastInDim ⟨2, ![1, D]⟩ ![1] h v (ix2 u j) = v (ix1 j) := by
  refine broadcastInDim_apply _ h v _ (ix1 j) fun ax => ?_
  match ax with
  | ⟨0, _⟩ =>
    show j.val = if D = 1 then 0 else j.val
    split
    · have := j.isLt; omega
    · rfl

/-- A row [1, D] repeated over N rows reads, at (n, j), the row's entry j. -/
theorem bcast_row_rows_apply {α : Type} (h : (⟨2, ![1, D]⟩ : Shape).BroadcastsInDim ⟨2, ![N, D]⟩ (![0, 1] : Fin 2 → Fin 2))
    (r : (⟨2, ![1, D]⟩ : Shape).Idx → α) (n : Fin N) (j : Fin D) :
    broadcastInDim ⟨2, ![N, D]⟩ ![0, 1] h r (ix2 n j) = r (ix2 (0 : Fin 1) j) := by
  refine broadcastInDim_apply _ h r _ (ix2 (0 : Fin 1) j) fun ax => ?_
  match ax with
  | ⟨0, _⟩ => rfl
  | ⟨1, _⟩ =>
    show j.val = if D = 1 then 0 else j.val
    split
    · have := j.isLt; omega
    · rfl

/-- The host form of the layer — product, bias added, second product added — is `dense`: at an entry both
    contractions are plain sums over k, the doubly broadcast bias reads its entry j, and the three summands are
    regrouped by commutativity and associativity of addition on the extended reals. -/
theorem host_dense {Dd : DotDims ⟨2, ![N, K]⟩ ⟨2, ![K, D]⟩ ⟨2, ![N, D]⟩} (hD : Plain Dd)
    (a x : FVec Ideal ⟨2, ![N, K]⟩ .f32) (wl wr : FVec Ideal ⟨2, ![K, D]⟩ .f32) (b : FVec Ideal ⟨1, ![D]⟩ .f32)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hc : (⟨1, ![D]⟩ : Shape).ShapeCasts ⟨2, ![1, D]⟩) :
    addf (addf (FloatOps.dotGeneral Dd none .single a wl)
        (broadcastInDim ⟨2, ![N, D]⟩ ![0, 1] h2 (broadcastInDim ⟨2, ![1, D]⟩ ![1] h1 b)))
      (FloatOps.dotGeneral Dd none .single x wr)
      = dense a x wl wr (shapeCast ⟨2, ![1, D]⟩ b hc) := by
  funext i
  obtain ⟨n, j, rfl⟩ : ∃ (n : Fin N) (j : Fin D), i = ix2 n j := ⟨i 0, i 1, eq_ix2 i⟩
  rw [addf_apply, addf_apply, hD.dotGeneral_apply, hD.dotGeneral_apply, bcast_row_rows_apply, bcast_vec_row_apply,
    dense_ix2, Cert.LibRowLayout.shapeCast_b_1b_apply]
  exact add_right_comm _ _ _

end Cert.LibDenseLayer

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibSageLayer.lean ====
/-
  One layer of a mean-aggregating graph network with the bias added BETWEEN its two matrix products, entry by entry.

  A layer takes the neighbourhood means `a` and the nodes' own features `h` (both N × K), two K × D weight matrices
  `wl`, `wr` (input axis first) and a bias row `b` (1 × D), and gives the N × D array whose entry (n, j) is

      (Σ_k a(n,k) · wl(k,j)  +  b(j))  +  Σ_k h(n,k) · wr(k,j),

  optionally followed by the maximum with zero.  The same array is what a composition of whole-array host operations
  computes (a dot_general, the bias row repeated over the N rows, a second dot_general, a maximum with a broadcast
  zero): at an entry each contraction is the plain sum over k and the repeated row reads its entry j.  An entry at row
  n reads only row n of `a` and of `h`, so a block of rows of the layer is the layer of the blocks of rows.  A bias
  vector made a row by a cast or by a broadcast along a new leading axis is the same row.  Nothing here needs an entry
  to be finite.  Generic in the extents N, K, D and in the contraction's record.
-/
import Idealize.ShloMosaic.PureOps.Ideal.Laws
import Idealize.ShloMosaic.Lib.ValueIdx
import Idealize.ShloMosaic.Lib.Pipeline.Value
import proofs.«164951_j29798483100072_1_alg».proof.Proof.LibDenseLayer
import proofs.«164951_j29798483100072_1_alg».proof.Proof.LibJoinedRows

noncomputable section

namespace Cert.LibSageLayer

open Idealize.ShloMosaic Idealize.ShloMosaic.ValueIdx Cert.LibPlainDot
open scoped BigOperators

variable {N K D : ℕ}

/-- The value of the f32 zero word (kept as the word: the same word on both sides is never evaluated). -/
abbrev zeroW : EReal := Ideal.ofBits .f32 0x00000000#32

/-- Entry (n, j) of a layer: the first product, the bias of column j, then the second product. -/
def layer (a h : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => (∑ k : Fin K, a (ix2 (i 0) k) * wl (ix2 k (i 1)) + b (ix2 (0 : Fin 1) (i 1)))
    + ∑ k : Fin K, h (ix2 (i 0) k) * wr (ix2 k (i 1))

/-- The layer followed by the maximum with zero. -/
def layerRelu (a h : (⟨2, ![N, K]⟩ : Shape).Idx → EReal) (wl wr : (⟨2, ![K, D]⟩ : Shape).Idx → EReal)
    (b : (⟨2, ![1, D]⟩ : Shape).Idx → EReal) : (⟨2, ![N, D]⟩ : Shape).Idx → EReal :=
  fun i => max (layer a h wl wr b i) zeroW

theorem layer_ix2 (a h : (⟨2, ![N, K]⟩ : Shape).Idx → EReal) (wl wr : (⟨2, ![K, D]⟩ : Shape).Idx → EReal)
    (b : (⟨2, ![1, D]⟩ : Shape).Idx → EReal) (n : Fin N) (j : Fin D) :
    layer a h wl wr b (ix2 n j)
      = (∑ k : Fin K, a (ix2 n k) * wl (ix2 k j) + b (ix2 (0 : Fin 1) j)) + ∑ k : Fin K, h (ix2 n k) * wr (ix2 k j) := rfl

theorem layerRelu_ix2 (a h : (⟨2, ![N, K]⟩ : Shape).Idx → EReal) (wl wr : (⟨2, ![K, D]⟩ : Shape).Idx → EReal)
    (b : (⟨2, ![1, D]⟩ : Shape).Idx → EReal) (n : Fin N) (j : Fin D) :
    layerRelu a h wl wr b (ix2 n j) = max (layer a h wl wr b (ix2 n j)) zeroW := rfl

/-! ## A block of rows -/

/-- Row p of arrays of M rows agreeing with row r of arrays of N rows: the layer's entries there agree. -/
theorem layer_rowBlock {M : ℕ} (a h : (⟨2, ![N, K]⟩ : Shape).Idx → EReal) (a' h' : (⟨2, ![M, K]⟩ : Shape).Idx → EReal)
    (wl wr : (⟨2, ![K, D]⟩ : Shape).Idx → EReal) (b : (⟨2, ![1, D]⟩ : Shape).Idx → EReal) (p : Fin M) (r : Fin N)
    (ha : ∀ k : Fin K, a' (ix2 p k) = a (ix2 r k)) (hh : ∀ k : Fin K, h' (ix2 p k) = h (ix2 r k)) (q : Fin D) :
    layer a' h' wl wr b (ix2 p q) = layer a h wl wr b (ix2 r q) := by
  simp only [layer_ix2, ha, hh]

theorem layerRelu_rowBlock {M : ℕ} (a h : (⟨2, ![N, K]⟩ : Shape).Idx → EReal) (a' h' : (⟨2, ![M, K]⟩ : Shape).Idx → EReal)
    (wl wr : (⟨2, ![K, D]⟩ : Shape).Idx → EReal) (b : (⟨2, ![1, D]⟩ : Shape).Idx → EReal) (p : Fin M) (r : Fin N)
    (ha : ∀ k : Fin K, a' (ix2 p k) = a (ix2 r k)) (hh : ∀ k : Fin K, h' (ix2 p k) = h (ix2 r k)) (q : Fin D) :
    layerRelu a' h' wl wr b (ix2 p q) = layerRelu a h wl wr b (ix2 r q) :=
  congrArg (max · zeroW) (layer_rowBlock a h a' h' wl wr b p r ha hh q)

/-! ## The host spelling -/

/-- Product, the bias row repeated over the rows, second product: the layer. -/
theorem host_layer {Dd : DotDims ⟨2, ![N, K]⟩ ⟨2, ![K, D]⟩ ⟨2, ![N, D]⟩} (hD : Plain Dd)
    (h2 : (⟨2, ![1, D]⟩ : Shape).BroadcastsInDim ⟨2, ![N, D]⟩ (![0, 1] : Fin 2 → Fin 2))
    (a h : FVec Ideal ⟨2, ![N, K]⟩ .f32) (wl wr : FVec Ideal ⟨2, ![K, D]⟩ .f32) (b : FVec Ideal ⟨2, ![1, D]⟩ .f32) :
    addf (addf (Host.dotGeneral Dd none a wl) (broadcastInDim ⟨2, ![N, D]⟩ ![0, 1] h2 b)) (Host.dotGeneral Dd none h wr)
      = layer a h wl wr b := by
  funext i
  obtain ⟨n, j, rfl⟩ : ∃ (n : Fin N) (j : Fin D), i = ix2 n j := ⟨i 0, i 1, eq_ix2 i⟩
  simp only [Host.dotGeneral]
  rw [addf_apply, addf_apply, hD.dotGeneral_apply, hD.dotGeneral_apply, Cert.LibDenseLayer.bcast_row_rows_apply, layer_ix2]

/-- … followed by the maximum with a broadcast zero. -/
theorem host_layerRelu {Dd : DotDims ⟨2, ![N, K]⟩ ⟨2, ![K, D]⟩ ⟨2, ![N, D]⟩} (hD : Plain Dd)
    (h2 : (⟨2, ![1, D]⟩ : Shape).BroadcastsInDim ⟨2, ![N, D]⟩ (![0, 1] : Fin 2 → Fin 2))
    (h0 : (⟨0, ![]⟩ : Shape).BroadcastsInDim ⟨2, ![N, D]⟩ (![] : Fin 0 → Fin 2))
    (a h : FVec Ideal ⟨2, ![N, K]⟩ .f32) (wl wr : FVec Ideal ⟨2, ![K, D]⟩ .f32) (b : FVec Ideal ⟨2, ![1, D]⟩ .f32) :
    maximumf (addf (addf (Host.dotGeneral Dd none a wl) (broadcastInDim ⟨2, ![N, D]⟩ ![0, 1] h2 b)) (Host.dotGeneral Dd none h wr))
        (broadcastInDim ⟨2, ![N, D]⟩ ![] h0 (constant (F := Ideal) ⟨0, ![]⟩ .f32 0x00000000#32))
      = layerRelu a h wl wr b := by
  rw [host_layer hD h2 a h wl wr b]
  funext i
  rw [maximumf_apply, Cert.LibJoinedRows.bcast_scalar_apply, constant_apply]
  rfl

/-- A bias vector made a row by a broadcast along a new leading axis is the vector cast to a row. -/
theorem bcast_vec_row_eq_shapeCast {α : Type}
    (h1 : (⟨1, ![D]⟩ : Shape).BroadcastsInDim ⟨2, ![1, D]⟩ (![1] : Fin 1 → Fin 2))
    (hc : (⟨1, ![D]⟩ : Shape).ShapeCasts ⟨2, ![1, D]⟩) (v : (⟨1, ![D]⟩ : Shape).Idx → α) :
    broadcastInDim ⟨2, ![1, D]⟩ ![1] h1 v = shapeCast ⟨2, ![1, D]⟩ v hc := by
  funext i
  obtain ⟨u, j, rfl⟩ : ∃ (u : Fin 1) (j : Fin D), i = ix2 u j := ⟨i 0, i 1, eq_ix2 i⟩
  rw [Cert.LibDenseLayer.bcast_vec_row_apply, Cert.LibRowLayout.shapeCast_b_1b_apply]

end Cert.LibSageLayer

end
-- ==== Proof.KSpec.lean ====
/-
  The idealized kernel's network, over the host stretches' whole-array terms and the layers entry by entry.

  Layer l takes the current features h, forms the neighbourhood means  kmean h s d  (s, d the edges' sources and
  destinations), and gives  (means · Wlᵀ + bias) + h · Wrᵀ  — followed by the maximum with zero in the first two
  layers — with the weights transposed and the bias vector cast to a one-row array on the host.
-/
import proofs.«164951_j29798483100072_1_alg».proof.Proof.HostDefs
import proofs.«164951_j29798483100072_1_alg».proof.Proof.LibSageLayer

noncomputable section

namespace Cert.KernelIdeal.HandValue

open Idealize.ShloMosaic Idealize.ShloMosaic.TcCoe
open Cert.KernelIdeal Cert.KernelIdeal.Gen Cert.LibSageLayer

/-- A weight matrix transposed. -/
def tr (w : FVec Ideal S64x64 .f32) : FVec Ideal S64x64 .f32 := transpose S64x64 [1, 0] w transposes_S64x64_S64x64_1_0

/-- A bias vector cast to a one-row array. -/
def crow (b : FVec Ideal S64 .f32) : FVec Ideal S1x64 .f32 := shapeCast S1x64 b shapeCasts_S64_S1x64

/-- The features after the first layer. -/
def kH1 (x : FVec Ideal S50000x64 .f32) (e : (⟨S2x800000, .i32⟩ : BufTy).Contents (Elt Ideal)) (wl0 : FVec Ideal S64x64 .f32) (b0 : FVec Ideal S64 .f32) (wr0 : FVec Ideal S64x64 .f32) : FVec Ideal S50000x64 .f32 :=
  layerRelu (N := 50000) (K := 64) (D := 64) (kmean x (srcOf e) (dstOf e)) x (tr wl0) (tr wr0) (crow b0)

/-- The features after the second layer. -/
def kH2 (x : FVec Ideal S50000x64 .f32) (e : (⟨S2x800000, .i32⟩ : BufTy).Contents (Elt Ideal)) (wl0 : FVec Ideal S64x64 .f32) (b0 : FVec Ideal S64 .f32) (wr0 : FVec Ideal S64x64 .f32)
    (wl1 : FVec Ideal S64x64 .f32) (b1 : FVec Ideal S64 .f32) (wr1 : FVec Ideal S64x64 .f32) : FVec Ideal S50000x64 .f32 :=
  layerRelu (N := 50000) (K := 64) (D := 64) (kmean (kH1 x e wl0 b0 wr0) (srcOf e) (dstOf e)) (kH1 x e wl0 b0 wr0) (tr wl1) (tr wr1) (crow b1)

/-- The network's result: the third layer, with no maximum. -/
def kNet (x : FVec Ideal S50000x64 .f32) (e : (⟨S2x800000, .i32⟩ : BufTy).Contents (Elt Ideal)) (wl0 : FVec Ideal S64x64 .f32) (b0 : FVec Ideal S64 .f32) (wr0 : FVec Ideal S64x64 .f32)
    (wl1 : FVec Ideal S64x64 .f32) (b1 : FVec Ideal S64 .f32) (wr1 : FVec Ideal S64x64 .f32)
    (wl2 : FVec Ideal S64x64 .f32) (b2 : FVec Ideal S64 .f32) (wr2 : FVec Ideal S64x64 .f32) : FVec Ideal S50000x64 .f32 :=
  layer (N := 50000) (K := 64) (D := 64) (kmean (kH2 x e wl0 b0 wr0 wl1 b1 wr1) (srcOf e) (dstOf e)) (kH2 x e wl0 b0 wr0 wl1 b1 wr1)
    (tr wl2) (tr wr2) (crow b2)

end Cert.KernelIdeal.HandValue

end
-- ==== Proof.LibSageTile.lean ====
/-
  A block of rows of a mean-aggregating layer as a kernel body computes it, and the block against the whole array.

  A body that holds M rows of the neighbourhood means and of the nodes' own features, the two K × D weight matrices
  and the 1 × D bias row computes, for its M × D block,

      (rows_a · wl  +  the bias row spread over the M rows)  +  rows_h · wr,

  each operand of the two products narrowed to a shorter float format on the way in and each product accumulated from
  the zero splat; it may then take the maximum with the zero splat.  Over the extended reals a narrowing is the identity
  and an accumulation from zero is the plain sum over the contracted axis, so at an entry (p, q) the block's value is
  the layer of the five operands it holds (`tile_layer_apply`, `tile_layerRelu_apply`).  An entry in row p of the
  block reads only row p of the two row operands; so when that row is row r of two N-row arrays, the three small
  operands are the whole arrays' and the columns agree, the block's entry is the entry of the layer of the whole arrays
  (`layer_block_entry`, `layerRelu_block_entry`).  Generic in the extents, the contraction's record and the narrow
  format; nothing needs an entry to be finite.
-/
import Idealize.ShloMosaic.PureOps.Ideal.Laws
import Idealize.ShloMosaic.Lib.ValueIdx
import Idealize.ShloMosaic.Lib.Pipeline.Value
import proofs.«164951_j29798483100072_1_alg».proof.Proof.LibSageLayer
import proofs.«164951_j29798483100072_1_alg».proof.Proof.LibPlainDotFormats
import proofs.«164951_j29798483100072_1_alg».proof.Proof.LibRowLayout

noncomputable section

namespace Cert.LibSageTile

open Idealize.ShloMosaic Idealize.ShloMosaic.ValueIdx Cert.LibPlainDot Cert.LibSageLayer
open scoped BigOperators

variable {M N K D : ℕ}

/-- One product of the block at an entry: both operands narrowed, the accumulator the zero splat — the plain sum of
    the operands' entries as they were before the narrowing. -/
theorem narrowed_matmul_zero_apply {Dd : DotDims ⟨2, ![M, K]⟩ ⟨2, ![K, D]⟩ ⟨2, ![M, D]⟩} (hD : Plain Dd)
    {ψ : FTy} (hψ : ψ.bits < FTy.f32.bits)
    (l : FVec Ideal ⟨2, ![M, K]⟩ .f32) (r : FVec Ideal ⟨2, ![K, D]⟩ .f32) (p : Fin M) (q : Fin D) :
    matmul Dd none (truncf ψ l hψ) (truncf ψ r hψ) (constant ⟨2, ![M, D]⟩ .f32 0x00000000#32) (ix2 p q)
      = ∑ k : Fin K, l (ix2 p k) * r (ix2 k q) :=
  hD.matmul_zero_apply_formats none (truncf ψ l hψ) (truncf ψ r hψ) p q

/-- First product, the bias row spread over the rows, second product: at an entry, the layer of the five operands. -/
theorem tile_layer_apply {Dd : DotDims ⟨2, ![M, K]⟩ ⟨2, ![K, D]⟩ ⟨2, ![M, D]⟩} (hD : Plain Dd)
    (hb : (⟨2, ![1, D]⟩ : Shape).Broadcasts ⟨2, ![M, D]⟩) {ψ : FTy} (hψ : ψ.bits < FTy.f32.bits)
    (a h : FVec Ideal ⟨2, ![M, K]⟩ .f32) (wl wr : FVec Ideal ⟨2, ![K, D]⟩ .f32) (b : FVec Ideal ⟨2, ![1, D]⟩ .f32)
    (p : Fin M) (q : Fin D) :
    addf (addf (matmul Dd none (truncf ψ a hψ) (truncf ψ wl hψ) (constant ⟨2, ![M, D]⟩ .f32 0x00000000#32))
          (broadcastTo ⟨2, ![M, D]⟩ b hb))
        (matmul Dd none (truncf ψ h hψ) (truncf ψ wr hψ) (constant ⟨2, ![M, D]⟩ .f32 0x00000000#32)) (ix2 p q)
      = layer a h wl wr b (ix2 p q) := by
  rw [addf_apply, addf_apply, narrowed_matmul_zero_apply hD hψ, narrowed_matmul_zero_apply hD hψ,
    Cert.LibRowLayout.broadcastTo_1b_ab_apply, layer_ix2]

/-- … followed by the maximum with the zero splat: the layer with its maximum. -/
theorem tile_layerRelu_apply {Dd : DotDims ⟨2, ![M, K]⟩ ⟨2, ![K, D]⟩ ⟨2, ![M, D]⟩} (hD : Plain Dd)
    (hb : (⟨2, ![1, D]⟩ : Shape).Broadcasts ⟨2, ![M, D]⟩) {ψ : FTy} (hψ : ψ.bits < FTy.f32.bits)
    (a h : FVec Ideal ⟨2, ![M, K]⟩ .f32) (wl wr : FVec Ideal ⟨2, ![K, D]⟩ .f32) (b : FVec Ideal ⟨2, ![1, D]⟩ .f32)
    (p : Fin M) (q : Fin D) :
    maximumf
        (addf (addf (matmul Dd none (truncf ψ a hψ) (truncf ψ wl hψ) (constant ⟨2, ![M, D]⟩ .f32 0x00000000#32))
            (broadcastTo ⟨2, ![M, D]⟩ b hb))
          (matmul Dd none (truncf ψ h hψ) (truncf ψ wr hψ) (constant ⟨2, ![M, D]⟩ .f32 0x00000000#32)))
        (broadcast ⟨2, ![M, D]⟩ (FloatOps.ofBits (F := Ideal) .f32 0x00000000#32)) (ix2 p q)
      = layerRelu a h wl wr b (ix2 p q) := by
  rw [maximumf_apply, broadcast_apply, tile_layer_apply hD hb hψ, layerRelu_ix2]
  rfl

/-- The zero offsets of a rank-2 whole-buffer access, however the zeros are spelt. -/
theorem zero_offsets2 : (![0, 0] : Fin 2 → Nat) = fun _ => 0 := funext fun a => by fin_cases a <;> rfl

/-! ## A block's entry against the whole arrays' -/

/-- Row `j 0` of the two row operands is row `i 0` of the arrays `a`, `h`; the small operands are the whole
    arrays'; the columns agree: the block's layer at `j` is the arrays' layer at `i`. -/
theorem layer_block_entry (x0 x1 : (⟨2, ![M, K]⟩ : Shape).Idx → EReal) (x2 x3 : (⟨2, ![K, D]⟩ : Shape).Idx → EReal)
    (x4 : (⟨2, ![1, D]⟩ : Shape).Idx → EReal) (a h : (⟨2, ![N, K]⟩ : Shape).Idx → EReal)
    (wl wr : (⟨2, ![K, D]⟩ : Shape).Idx → EReal) (b : (⟨2, ![1, D]⟩ : Shape).Idx → EReal)
    (j : (⟨2, ![M, D]⟩ : Shape).Idx) (i : (⟨2, ![N, D]⟩ : Shape).Idx)
    (h0 : ∀ k : Fin K, x0 (ix2 (j 0) k) = a (ix2 (i 0) k)) (h1 : ∀ k : Fin K, x1 (ix2 (j 0) k) = h (ix2 (i 0) k))
    (h2 : x2 = wl) (h3 : x3 = wr) (h4 : x4 = b) (hq : (i 1).val = (j 1).val) :
    layer x0 x1 x2 x3 x4 j = layer a h wl wr b i := by
  subst h2 h3 h4
  obtain ⟨p, q, rfl⟩ : ∃ (p : Fin M) (q : Fin D), j = ix2 p q := ⟨j 0, j 1, eq_ix2 j⟩
  obtain ⟨r, q', rfl⟩ : ∃ (r : Fin N) (q' : Fin D), i = ix2 r q' := ⟨i 0, i 1, eq_ix2 i⟩
  obtain rfl : q = q' := (Fin.ext hq).symm
  exact layer_rowBlock a h x0 x1 x2 x3 x4 p r h0 h1 q

/-- The same with the maximum. -/
theorem layerRelu_block_entry (x0 x1 : (⟨2, ![M, K]⟩ : Shape).Idx → EReal) (x2 x3 : (⟨2, ![K, D]⟩ : Shape).Idx → EReal)
    (x4 : (⟨2, ![1, D]⟩ : Shape).Idx → EReal) (a h : (⟨2, ![N, K]⟩ : Shape).Idx → EReal)
    (wl wr : (⟨2, ![K, D]⟩ : Shape).Idx → EReal) (b : (⟨2, ![1, D]⟩ : Shape).Idx → EReal)
    (j : (⟨2, ![M, D]⟩ : Shape).Idx) (i : (⟨2, ![N, D]⟩ : Shape).Idx)
    (h0 : ∀ k : Fin K, x0 (ix2 (j 0) k) = a (ix2 (i 0) k)) (h1 : ∀ k : Fin K, x1 (ix2 (j 0) k) = h (ix2 (i 0) k))
    (h2 : x2 = wl) (h3 : x3 = wr) (h4 : x4 = b) (hq : (i 1).val = (j 1).val) :
    layerRelu x0 x1 x2 x3 x4 j = layerRelu a h wl wr b i :=
  congrArg (max · zeroW) (layer_block_entry x0 x1 x2 x3 x4 a h wl wr b j i h0 h1 h2 h3 h4 hq)

end Cert.LibSageTile

end
-- ==== Proof.Region0.lean ====
/-
  Region 0 of the kernel's program, read as a whole-array function.

  The region runs its body at 25 grid points.  At point t the body holds rows 2000 t … 2000 t + 1999 of the region's
  two 50000 × 64 row operands (the neighbourhood means and the nodes' features), the two 64 × 64 weight matrices and
  the 1 × 64 bias row whole, and stores into rows 2000 t … 2000 t + 1999 of the output the layer of what it holds:
  (means · wl + bias) + features · wr followed by the maximum with zero.  An entry of the layer at row r reads only row r of the two row
  operands, so the block point t writes back is block t of the layer of the five WHOLE arrays; the 25 blocks cover the
  50000 rows (row r lies in the block of point r / 2000), so the array the pipeline leaves is that layer.
-/
import proofs.«164951_j29798483100072_1_alg».proof.Proof.Gen.KernelIdeal.Frame
import proofs.«164951_j29798483100072_1_alg».proof.Proof.LibSageLayer
import proofs.«164951_j29798483100072_1_alg».proof.Proof.LibSageTile
import Idealize.ShloMosaic.Lib.Pipeline.Value

noncomputable section

namespace Cert.KernelIdeal.HandValue

open Idealize.ShloMosaic Idealize.ShloMosaic.TcCoe Idealize.SL.Sem Idealize.ShloMosaic.ValueIdx
open Cert.KernelIdeal Cert.KernelIdeal.Gen Cert.LibSageLayer Cert.LibPlainDot Cert.LibSageTile
open Idealize.ShloMosaic.Pipeline (Dat)

namespace Region0

/-- The body's contraction is the plain product of a 2000 × 64 block with a 64 × 64 matrix. -/
theorem plainDot : Plain dot_S2000x64_S64x64_S2000x64_1_0_0_1_n_n := ⟨rfl, rfl, rfl, rfl, rfl, rfl⟩

/-- What the body stores, at an entry of the block: the layer (with its maximum) of the five blocks it loaded. -/
theorem pay_apply (x0 x1 : FVec Ideal S2000x64 .f32) (x2 x3 : FVec Ideal S64x64 .f32) (x4 : FVec Ideal S1x64 .f32)
    (p : Fin 2000) (q : Fin 64) :
    k0_pay1 (F := Ideal) x0 x1 x2 x3 x4 (ix2 p q) = layerRelu (N := 2000) (K := 64) (D := 64) x0 x1 x2 x3 x4 (ix2 p q) := by
  unfold k0_pay1
  simp only [shapeCast_self]
  exact tile_layerRelu_apply plainDot broadcasts_S1x64_S2000x64 bitsLt_bf16_f32 x0 x1 x2 x3 x4 p q

/-- One entry of the stored block against one entry of the whole-array layer: when row `j 0` of the two row blocks is
    row `i 0` of the arrays `a`, `h`, the three small operands are the whole arrays, and the columns agree, the stored
    entry is the layer's. -/
theorem point (x0 x1 : FVec Ideal S2000x64 .f32) (x2 x3 : FVec Ideal S64x64 .f32) (x4 : FVec Ideal S1x64 .f32)
    (a h : S50000x64.Idx → EReal) (wl wr : S64x64.Idx → EReal) (b : S1x64.Idx → EReal)
    (j : S2000x64.Idx) (i : S50000x64.Idx)
    (h0 : ∀ k : Fin 64, x0 (ix2 (j 0) k) = a (ix2 (i 0) k))
    (h1 : ∀ k : Fin 64, x1 (ix2 (j 0) k) = h (ix2 (i 0) k))
    (h2 : x2 = wl) (h3 : x3 = wr) (h4 : x4 = b)
    (hq : (i 1).val = (j 1).val) :
    k0_pay1 (F := Ideal) x0 x1 x2 x3 x4 j = layerRelu (N := 50000) (K := 64) (D := 64) a h wl wr b i := by
  have e : k0_pay1 (F := Ideal) x0 x1 x2 x3 x4 j = layerRelu (N := 2000) (K := 64) (D := 64) x0 x1 x2 x3 x4 j := by
    obtain ⟨p, q, rfl⟩ : ∃ (p : Fin 2000) (q : Fin 64), j = ix2 p q := ⟨j 0, j 1, eq_ix2 j⟩
    exact pay_apply x0 x1 x2 x3 x4 p q
  exact e.trans (layerRelu_block_entry x0 x1 x2 x3 x4 a h wl wr b j i h0 h1 h2 h3 h4 hq)

/-- The printed index maps over the grid: the row-blocked windows 0, 1, 5 sit at block (t, 0), the three small
    operands' windows at block (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Window 0's block at point t is rows 2000 t … 2000 t + 1999 of its array. -/
theorem rows_0 (c : Dev nD) (t : Fin cfg0.N) (y : S2000x64.Idx) (i : S50000x64.Idx)
    (hi0 : (i 0).val = t.val * 2000 + (y 0).val) (hi1 : (i 1).val = (y 1).val) :
    (iblk0 (F := Ideal) V c 0 t : Vec Ideal S2000x64 .f32) y = (V c main_v24 : S50000x64.Idx → Elt Ideal .f32) i := by
  obtain ⟨e0, e1, -⟩ := idx t
  unfold iblk0
  rw [View.read_apply]
  show (V c main_v24 : S50000x64.Idx → Elt Ideal .f32) _ = V c main_v24 i
  refine congrArg (V c main_v24 : S50000x64.Idx → Elt Ideal .f32) (funext fun a => Fin.ext ?_)
  match a with
  | ⟨0, _⟩ => show win0_0.index t (0 : Fin 2) * 2000 + 1 * (y 0).val = (i 0).val; rw [e0, hi0]; omega
  | ⟨1, _⟩ => show win0_0.index t (1 : Fin 2) * 64 + 1 * (y 1).val = (i 1).val; rw [e1, hi1]; omega

/-- Window 1's block at point t is rows 2000 t … 2000 t + 1999 of its array. -/
theorem rows_1 (c : Dev nD) (t : Fin cfg0.N) (y : S2000x64.Idx) (i : S50000x64.Idx)
    (hi0 : (i 0).val = t.val * 2000 + (y 0).val) (hi1 : (i 1).val = (y 1).val) :
    (iblk0 (F := Ideal) V c 1 t : Vec Ideal S2000x64 .f32) y = (V c main_arg0 : S50000x64.Idx → Elt Ideal .f32) i := by
  obtain ⟨-, -, e0, e1, -⟩ := idx t
  unfold iblk0
  rw [View.read_apply]
  show (V c main_arg0 : S50000x64.Idx → Elt Ideal .f32) _ = V c main_arg0 i
  refine congrArg (V c main_arg0 : S50000x64.Idx → Elt Ideal .f32) (funext fun a => Fin.ext ?_)
  match a with
  | ⟨0, _⟩ => show win0_1.index t (0 : Fin 2) * 2000 + 1 * (y 0).val = (i 0).val; rw [e0, hi0]; omega
  | ⟨1, _⟩ => show win0_1.index t (1 : Fin 2) * 64 + 1 * (y 1).val = (i 1).val; rw [e1, hi1]; omega

/-- Window 2's block at every point is its whole array. -/
theorem whole_2 (c : Dev nD) (t : Fin cfg0.N) :
    (iblk0 (F := Ideal) V c 2 t : Vec Ideal S64x64 .f32) = (V c main_v25 : S64x64.Idx → Elt Ideal .f32) := by
  obtain ⟨-, -, -, -, e0, e1, -⟩ := idx t
  funext y
  unfold iblk0
  rw [View.read_apply]
  show (V c main_v25 : S64x64.Idx → Elt Ideal .f32) _ = V c main_v25 y
  refine congrArg (V c main_v25 : S64x64.Idx → Elt Ideal .f32) (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- Window 3's block at every point is its whole array. -/
theorem whole_3 (c : Dev nD) (t : Fin cfg0.N) :
    (iblk0 (F := Ideal) V c 3 t : Vec Ideal S64x64 .f32) = (V c main_v26 : S64x64.Idx → Elt Ideal .f32) := by
  obtain ⟨-, -, -, -, -, -, e0, e1, -⟩ := idx t
  funext y
  unfold iblk0
  rw [View.read_apply]
  show (V c main_v26 : S64x64.Idx → Elt Ideal .f32) _ = V c main_v26 y
  refine congrArg (V c main_v26 : S64x64.Idx → Elt Ideal .f32) (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- Window 4's block at every point is its whole array (the bias row). -/
theorem whole_4 (c : Dev nD) (t : Fin cfg0.N) :
    (iblk0 (F := Ideal) V c 4 t : Vec Ideal S1x64 .f32) = (V c main_v27 : S1x64.Idx → Elt Ideal .f32) := by
  obtain ⟨-, -, -, -, -, -, -, -, e0, e1, -⟩ := idx t
  funext y
  unfold iblk0
  rw [View.read_apply]
  show (V c main_v27 : S1x64.Idx → Elt Ideal .f32) _ = V c main_v27 y
  refine congrArg (V c main_v27 : S1x64.Idx → Elt Ideal .f32) (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The layer (with its maximum) of the region's five input arrays, as whole arrays. -/
abbrev G (c : Dev nD) : S50000x64.Idx → EReal :=
  layerRelu (N := 50000) (K := 64) (D := 64) (V c main_v24) (V c main_arg0) (V c main_v25) (V c main_v26) (V c main_v27)

/-- What point t writes back is block t of the whole-array layer. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero zero_offsets2]
  simp only [View.ld_unit_zero (S := S2000x64) zero_offsets2, View.ld_unit_zero (S := S64x64) zero_offsets2,
    View.ld_unit_zero (S := S1x64) zero_offsets2]
  obtain ⟨-, -, -, -, -, -, -, -, -, -, e0, e1⟩ := idx t
  funext j
  show k0_pay1 (iblk0 V c 0 t) (iblk0 V c 1 t) (iblk0 V c 2 t) (iblk0 V c 3 t) (iblk0 V c 4 t) j
    = G V c (((cfg0.win 5).blk t).view.emb j)
  have r0 : ((((cfg0.win 5).blk t).view.emb j : S50000x64.Idx) 0).val = t.val * 2000 + (j 0).val := by
    show win0_5.index t (0 : Fin 2) * 2000 + 1 * (j 0).val = _; rw [e0]; omega
  have r1 : ((((cfg0.win 5).blk t).view.emb j : S50000x64.Idx) 1).val = (j 1).val := by
    show win0_5.index t (1 : Fin 2) * 64 + 1 * (j 1).val = _; rw [e1]; omega
  exact point (iblk0 V c 0 t) (iblk0 V c 1 t) (iblk0 V c 2 t) (iblk0 V c 3 t) (iblk0 V c 4 t)
    (V c main_v24) (V c main_arg0) (V c main_v25) (V c main_v26) (V c main_v27) j (((cfg0.win 5).blk t).view.emb j)
    (fun k => rows_0 V c t _ _ r0 rfl) (fun k => rows_1 V c t _ _ r0 rfl)
    (whole_2 V c t) (whole_3 V c t) (whole_4 V c t) r1

/-- An index of the output array is in point t's block iff each coordinate is in the block's range on its axis. -/
theorem mem_blk (t : Fin cfg0.N) (i : S50000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v28).slice (win0_5.rect t)).set ↔ _
  rw [View.set_slice_whole, Rect.mem_set_unit]
  exact Iff.rfl

/-- Every index of the output array is in some point's block: row r is in the block of point r / 2000. -/
theorem cover (i : S50000x64.Idx) :
    ∃ t : Fin cfg0.N, (cfg0.win 5).flush t = true ∧ i ∈ ((cfg0.win 5).blk t).view.set := by
  have hi0 : (i 0).val < 50000 := idx2_lt0 i
  have hi1 : (i 1).val < 64 := idx2_lt1 i
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, e0, e1⟩ := idx t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 64 ≤ (i 1).val ∧ (i 1).val < win0_5.index t (1 : Fin 2) * 64 + 64
    rw [e1]; omega

end Region0

/-- The output array region 0's pipeline leaves is the layer (with its maximum) of its five input arrays as whole arrays. -/
theorem region0_array (V : (c : Dev nD) → (b : Ref sig .tc) → Buf (Elt Ideal) ((c : Thread nD τ).loc b)) (c : Dev nD) :
    (dat0 (F := Ideal) V c).arrAt 5 cfg0.N
      = layerRelu (N := 50000) (K := 64) (D := 64) (V c main_v24) (V c main_arg0) (V c main_v25) (V c main_v26) (V c main_v27) :=
  (dat0 (F := Ideal) V c).arrAt_eq_of_cover 5 (Region0.G V c) (fun t _ => Region0.flushed_eq V c t) Region0.cover

end Cert.KernelIdeal.HandValue

end
-- ==== Proof.Region1.lean ====
/-
  Region 1 of the kernel's program, read as a whole-array function.

  The region runs its body at 25 grid points.  At point t the body holds rows 2000 t … 2000 t + 1999 of the region's
  two 50000 × 64 row operands (the neighbourhood means and the nodes' features), the two 64 × 64 weight matrices and
  the 1 × 64 bias row whole, and stores into rows 2000 t … 2000 t + 1999 of the output the layer of what it holds:
  (means · wl + bias) + features · wr followed by the maximum with zero.  An entry of the layer at row r reads only row r of the two row
  operands, so the block point t writes back is block t of the layer of the five WHOLE arrays; the 25 blocks cover the
  50000 rows (row r lies in the block of point r / 2000), so the array the pipeline leaves is that layer.
-/
import proofs.«164951_j29798483100072_1_alg».proof.Proof.Gen.KernelIdeal.Frame
import proofs.«164951_j29798483100072_1_alg».proof.Proof.LibSageLayer
import proofs.«164951_j29798483100072_1_alg».proof.Proof.LibSageTile
import Idealize.ShloMosaic.Lib.Pipeline.Value

noncomputable section

namespace Cert.KernelIdeal.HandValue

open Idealize.ShloMosaic Idealize.ShloMosaic.TcCoe Idealize.SL.Sem Idealize.ShloMosaic.ValueIdx
open Cert.KernelIdeal Cert.KernelIdeal.Gen Cert.LibSageLayer Cert.LibPlainDot Cert.LibSageTile
open Idealize.ShloMosaic.Pipeline (Dat)

namespace Region1

/-- The body's contraction is the plain product of a 2000 × 64 block with a 64 × 64 matrix. -/
theorem plainDot : Plain dot_S2000x64_S64x64_S2000x64_1_0_0_1_n_n := ⟨rfl, rfl, rfl, rfl, rfl, rfl⟩

/-- What the body stores, at an entry of the block: the layer (with its maximum) of the five blocks it loaded. -/
theorem pay_apply (x0 x1 : FVec Ideal S2000x64 .f32) (x2 x3 : FVec Ideal S64x64 .f32) (x4 : FVec Ideal S1x64 .f32)
    (p : Fin 2000) (q : Fin 64) :
    k1_pay1 (F := Ideal) x0 x1 x2 x3 x4 (ix2 p q) = layerRelu (N := 2000) (K := 64) (D := 64) x0 x1 x2 x3 x4 (ix2 p q) := by
  unfold k1_pay1
  simp only [shapeCast_self]
  exact tile_layerRelu_apply plainDot broadcasts_S1x64_S2000x64 bitsLt_bf16_f32 x0 x1 x2 x3 x4 p q

/-- One entry of the stored block against one entry of the whole-array layer: when row `j 0` of the two row blocks is
    row `i 0` of the arrays `a`, `h`, the three small operands are the whole arrays, and the columns agree, the stored
    entry is the layer's. -/
theorem point (x0 x1 : FVec Ideal S2000x64 .f32) (x2 x3 : FVec Ideal S64x64 .f32) (x4 : FVec Ideal S1x64 .f32)
    (a h : S50000x64.Idx → EReal) (wl wr : S64x64.Idx → EReal) (b : S1x64.Idx → EReal)
    (j : S2000x64.Idx) (i : S50000x64.Idx)
    (h0 : ∀ k : Fin 64, x0 (ix2 (j 0) k) = a (ix2 (i 0) k))
    (h1 : ∀ k : Fin 64, x1 (ix2 (j 0) k) = h (ix2 (i 0) k))
    (h2 : x2 = wl) (h3 : x3 = wr) (h4 : x4 = b)
    (hq : (i 1).val = (j 1).val) :
    k1_pay1 (F := Ideal) x0 x1 x2 x3 x4 j = layerRelu (N := 50000) (K := 64) (D := 64) a h wl wr b i := by
  have e : k1_pay1 (F := Ideal) x0 x1 x2 x3 x4 j = layerRelu (N := 2000) (K := 64) (D := 64) x0 x1 x2 x3 x4 j := by
    obtain ⟨p, q, rfl⟩ : ∃ (p : Fin 2000) (q : Fin 64), j = ix2 p q := ⟨j 0, j 1, eq_ix2 j⟩
    exact pay_apply x0 x1 x2 x3 x4 p q
  exact e.trans (layerRelu_block_entry x0 x1 x2 x3 x4 a h wl wr b j i h0 h1 h2 h3 h4 hq)

/-- The printed index maps over the grid: the row-blocked windows 0, 1, 5 sit at block (t, 0), the three small
    operands' windows at block (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Window 0's block at point t is rows 2000 t … 2000 t + 1999 of its array. -/
theorem rows_0 (c : Dev nD) (t : Fin cfg1.N) (y : S2000x64.Idx) (i : S50000x64.Idx)
    (hi0 : (i 0).val = t.val * 2000 + (y 0).val) (hi1 : (i 1).val = (y 1).val) :
    (iblk1 (F := Ideal) V c 0 t : Vec Ideal S2000x64 .f32) y = (V c main_v49 : S50000x64.Idx → Elt Ideal .f32) i := by
  obtain ⟨e0, e1, -⟩ := idx t
  unfold iblk1
  rw [View.read_apply]
  show (V c main_v49 : S50000x64.Idx → Elt Ideal .f32) _ = V c main_v49 i
  refine congrArg (V c main_v49 : S50000x64.Idx → Elt Ideal .f32) (funext fun a => Fin.ext ?_)
  match a with
  | ⟨0, _⟩ => show win1_0.index t (0 : Fin 2) * 2000 + 1 * (y 0).val = (i 0).val; rw [e0, hi0]; omega
  | ⟨1, _⟩ => show win1_0.index t (1 : Fin 2) * 64 + 1 * (y 1).val = (i 1).val; rw [e1, hi1]; omega

/-- Window 1's block at point t is rows 2000 t … 2000 t + 1999 of its array. -/
theorem rows_1 (c : Dev nD) (t : Fin cfg1.N) (y : S2000x64.Idx) (i : S50000x64.Idx)
    (hi0 : (i 0).val = t.val * 2000 + (y 0).val) (hi1 : (i 1).val = (y 1).val) :
    (iblk1 (F := Ideal) V c 1 t : Vec Ideal S2000x64 .f32) y = (V c main_v28 : S50000x64.Idx → Elt Ideal .f32) i := by
  obtain ⟨-, -, e0, e1, -⟩ := idx t
  unfold iblk1
  rw [View.read_apply]
  show (V c main_v28 : S50000x64.Idx → Elt Ideal .f32) _ = V c main_v28 i
  refine congrArg (V c main_v28 : S50000x64.Idx → Elt Ideal .f32) (funext fun a => Fin.ext ?_)
  match a with
  | ⟨0, _⟩ => show win1_1.index t (0 : Fin 2) * 2000 + 1 * (y 0).val = (i 0).val; rw [e0, hi0]; omega
  | ⟨1, _⟩ => show win1_1.index t (1 : Fin 2) * 64 + 1 * (y 1).val = (i 1).val; rw [e1, hi1]; omega

/-- Window 2's block at every point is its whole array. -/
theorem whole_2 (c : Dev nD) (t : Fin cfg1.N) :
    (iblk1 (F := Ideal) V c 2 t : Vec Ideal S64x64 .f32) = (V c main_v50 : S64x64.Idx → Elt Ideal .f32) := by
  obtain ⟨-, -, -, -, e0, e1, -⟩ := idx t
  funext y
  unfold iblk1
  rw [View.read_apply]
  show (V c main_v50 : S64x64.Idx → Elt Ideal .f32) _ = V c main_v50 y
  refine congrArg (V c main_v50 : S64x64.Idx → Elt Ideal .f32) (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- Window 3's block at every point is its whole array. -/
theorem whole_3 (c : Dev nD) (t : Fin cfg1.N) :
    (iblk1 (F := Ideal) V c 3 t : Vec Ideal S64x64 .f32) = (V c main_v51 : S64x64.Idx → Elt Ideal .f32) := by
  obtain ⟨-, -, -, -, -, -, e0, e1, -⟩ := idx t
  funext y
  unfold iblk1
  rw [View.read_apply]
  show (V c main_v51 : S64x64.Idx → Elt Ideal .f32) _ = V c main_v51 y
  refine congrArg (V c main_v51 : S64x64.Idx → Elt Ideal .f32) (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- Window 4's block at every point is its whole array (the bias row). -/
theorem whole_4 (c : Dev nD) (t : Fin cfg1.N) :
    (iblk1 (F := Ideal) V c 4 t : Vec Ideal S1x64 .f32) = (V c main_v52 : S1x64.Idx → Elt Ideal .f32) := by
  obtain ⟨-, -, -, -, -, -, -, -, e0, e1, -⟩ := idx t
  funext y
  unfold iblk1
  rw [View.read_apply]
  show (V c main_v52 : S1x64.Idx → Elt Ideal .f32) _ = V c main_v52 y
  refine congrArg (V c main_v52 : S1x64.Idx → Elt Ideal .f32) (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- The layer (with its maximum) of the region's five input arrays, as whole arrays. -/
abbrev G (c : Dev nD) : S50000x64.Idx → EReal :=
  layerRelu (N := 50000) (K := 64) (D := 64) (V c main_v49) (V c main_v28) (V c main_v50) (V c main_v51) (V c main_v52)

/-- What point t writes back is block t of the whole-array layer. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero zero_offsets2]
  simp only [View.ld_unit_zero (S := S2000x64) zero_offsets2, View.ld_unit_zero (S := S64x64) zero_offsets2,
    View.ld_unit_zero (S := S1x64) zero_offsets2]
  obtain ⟨-, -, -, -, -, -, -, -, -, -, e0, e1⟩ := idx t
  funext j
  show k1_pay1 (iblk1 V c 0 t) (iblk1 V c 1 t) (iblk1 V c 2 t) (iblk1 V c 3 t) (iblk1 V c 4 t) j
    = G V c (((cfg1.win 5).blk t).view.emb j)
  have r0 : ((((cfg1.win 5).blk t).view.emb j : S50000x64.Idx) 0).val = t.val * 2000 + (j 0).val := by
    show win1_5.index t (0 : Fin 2) * 2000 + 1 * (j 0).val = _; rw [e0]; omega
  have r1 : ((((cfg1.win 5).blk t).view.emb j : S50000x64.Idx) 1).val = (j 1).val := by
    show win1_5.index t (1 : Fin 2) * 64 + 1 * (j 1).val = _; rw [e1]; omega
  exact point (iblk1 V c 0 t) (iblk1 V c 1 t) (iblk1 V c 2 t) (iblk1 V c 3 t) (iblk1 V c 4 t)
    (V c main_v49) (V c main_v28) (V c main_v50) (V c main_v51) (V c main_v52) j (((cfg1.win 5).blk t).view.emb j)
    (fun k => rows_0 V c t _ _ r0 rfl) (fun k => rows_1 V c t _ _ r0 rfl)
    (whole_2 V c t) (whole_3 V c t) (whole_4 V c t) r1

/-- An index of the output array is in point t's block iff each coordinate is in the block's range on its axis. -/
theorem mem_blk (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v53).slice (win1_5.rect t)).set ↔ _
  rw [View.set_slice_whole, Rect.mem_set_unit]
  exact Iff.rfl

/-- Every index of the output array is in some point's block: row r is in the block of point r / 2000. -/
theorem cover (i : S50000x64.Idx) :
    ∃ t : Fin cfg1.N, (cfg1.win 5).flush t = true ∧ i ∈ ((cfg1.win 5).blk t).view.set := by
  have hi0 : (i 0).val < 50000 := idx2_lt0 i
  have hi1 : (i 1).val < 64 := idx2_lt1 i
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := idx t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 64 ≤ (i 1).val ∧ (i 1).val < win1_5.index t (1 : Fin 2) * 64 + 64
    rw [e1]; omega

end Region1

/-- The output array region 1's pipeline leaves is the layer (with its maximum) of its five input arrays as whole arrays. -/
theorem region1_array (V : (c : Dev nD) → (b : Ref sig .tc) → Buf (Elt Ideal) ((c : Thread nD τ).loc b)) (c : Dev nD) :
    (dat1 (F := Ideal) V c).arrAt 5 cfg1.N
      = layerRelu (N := 50000) (K := 64) (D := 64) (V c main_v49) (V c main_v28) (V c main_v50) (V c main_v51) (V c main_v52) :=
  (dat1 (F := Ideal) V c).arrAt_eq_of_cover 5 (Region1.G V c) (fun t _ => Region1.flushed_eq V c t) Region1.cover

end Cert.KernelIdeal.HandValue

end
-- ==== Proof.Region2.lean ====
/-
  Region 2 of the kernel's program, read as a whole-array function.

  The region runs its body at 25 grid points.  At point t the body holds rows 2000 t … 2000 t + 1999 of the region's
  two 50000 × 64 row operands (the neighbourhood means and the nodes' features), the two 64 × 64 weight matrices and
  the 1 × 64 bias row whole, and stores into rows 2000 t … 2000 t + 1999 of the output the layer of what it holds:
  (means · wl + bias) + features · wr.  An entry of the layer at row r reads only row r of the two row
  operands, so the block point t writes back is block t of the layer of the five WHOLE arrays; the 25 blocks cover the
  50000 rows (row r lies in the block of point r / 2000), so the array the pipeline leaves is that layer.
-/
import proofs.«164951_j29798483100072_1_alg».proof.Proof.Gen.KernelIdeal.Frame
import proofs.«164951_j29798483100072_1_alg».proof.Proof.LibSageLayer
import proofs.«164951_j29798483100072_1_alg».proof.Proof.LibSageTile
import Idealize.ShloMosaic.Lib.Pipeline.Value

noncomputable section

namespace Cert.KernelIdeal.HandValue

open Idealize.ShloMosaic Idealize.ShloMosaic.TcCoe Idealize.SL.Sem Idealize.ShloMosaic.ValueIdx
open Cert.KernelIdeal Cert.KernelIdeal.Gen Cert.LibSageLayer Cert.LibPlainDot Cert.LibSageTile
open Idealize.ShloMosaic.Pipeline (Dat)

namespace Region2

/-- The body's contraction is the plain product of a 2000 × 64 block with a 64 × 64 matrix. -/
theorem plainDot : Plain dot_S2000x64_S64x64_S2000x64_1_0_0_1_n_n := ⟨rfl, rfl, rfl, rfl, rfl, rfl⟩

/-- What the body stores, at an entry of the block: the layer of the five blocks it loaded. -/
theorem pay_apply (x0 x1 : FVec Ideal S2000x64 .f32) (x2 x3 : FVec Ideal S64x64 .f32) (x4 : FVec Ideal S1x64 .f32)
    (p : Fin 2000) (q : Fin 64) :
    k2_pay1 (F := Ideal) x0 x1 x2 x3 x4 (ix2 p q) = layer (N := 2000) (K := 64) (D := 64) x0 x1 x2 x3 x4 (ix2 p q) := by
  unfold k2_pay1
  simp only [shapeCast_self]
  exact tile_layer_apply plainDot broadcasts_S1x64_S2000x64 bitsLt_bf16_f32 x0 x1 x2 x3 x4 p q

/-- One entry of the stored block against one entry of the whole-array layer: when row `j 0` of the two row blocks is
    row `i 0` of the arrays `a`, `h`, the three small operands are the whole arrays, and the columns agree, the stored
    entry is the layer's. -/
theorem point (x0 x1 : FVec Ideal S2000x64 .f32) (x2 x3 : FVec Ideal S64x64 .f32) (x4 : FVec Ideal S1x64 .f32)
    (a h : S50000x64.Idx → EReal) (wl wr : S64x64.Idx → EReal) (b : S1x64.Idx → EReal)
    (j : S2000x64.Idx) (i : S50000x64.Idx)
    (h0 : ∀ k : Fin 64, x0 (ix2 (j 0) k) = a (ix2 (i 0) k))
    (h1 : ∀ k : Fin 64, x1 (ix2 (j 0) k) = h (ix2 (i 0) k))
    (h2 : x2 = wl) (h3 : x3 = wr) (h4 : x4 = b)
    (hq : (i 1).val = (j 1).val) :
    k2_pay1 (F := Ideal) x0 x1 x2 x3 x4 j = layer (N := 50000) (K := 64) (D := 64) a h wl wr b i := by
  have e : k2_pay1 (F := Ideal) x0 x1 x2 x3 x4 j = layer (N := 2000) (K := 64) (D := 64) x0 x1 x2 x3 x4 j := by
    obtain ⟨p, q, rfl⟩ : ∃ (p : Fin 2000) (q : Fin 64), j = ix2 p q := ⟨j 0, j 1, eq_ix2 j⟩
    exact pay_apply x0 x1 x2 x3 x4 p q
  exact e.trans (layer_block_entry x0 x1 x2 x3 x4 a h wl wr b j i h0 h1 h2 h3 h4 hq)

/-- The printed index maps over the grid: the row-blocked windows 0, 1, 5 sit at block (t, 0), the three small
    operands' windows at block (0, 0). -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Window 0's block at point t is rows 2000 t … 2000 t + 1999 of its array. -/
theorem rows_0 (c : Dev nD) (t : Fin cfg2.N) (y : S2000x64.Idx) (i : S50000x64.Idx)
    (hi0 : (i 0).val = t.val * 2000 + (y 0).val) (hi1 : (i 1).val = (y 1).val) :
    (iblk2 (F := Ideal) V c 0 t : Vec Ideal S2000x64 .f32) y = (V c main_v74 : S50000x64.Idx → Elt Ideal .f32) i := by
  obtain ⟨e0, e1, -⟩ := idx t
  unfold iblk2
  rw [View.read_apply]
  show (V c main_v74 : S50000x64.Idx → Elt Ideal .f32) _ = V c main_v74 i
  refine congrArg (V c main_v74 : S50000x64.Idx → Elt Ideal .f32) (funext fun a => Fin.ext ?_)
  match a with
  | ⟨0, _⟩ => show win2_0.index t (0 : Fin 2) * 2000 + 1 * (y 0).val = (i 0).val; rw [e0, hi0]; omega
  | ⟨1, _⟩ => show win2_0.index t (1 : Fin 2) * 64 + 1 * (y 1).val = (i 1).val; rw [e1, hi1]; omega

/-- Window 1's block at point t is rows 2000 t … 2000 t + 1999 of its array. -/
theorem rows_1 (c : Dev nD) (t : Fin cfg2.N) (y : S2000x64.Idx) (i : S50000x64.Idx)
    (hi0 : (i 0).val = t.val * 2000 + (y 0).val) (hi1 : (i 1).val = (y 1).val) :
    (iblk2 (F := Ideal) V c 1 t : Vec Ideal S2000x64 .f32) y = (V c main_v53 : S50000x64.Idx → Elt Ideal .f32) i := by
  obtain ⟨-, -, e0, e1, -⟩ := idx t
  unfold iblk2
  rw [View.read_apply]
  show (V c main_v53 : S50000x64.Idx → Elt Ideal .f32) _ = V c main_v53 i
  refine congrArg (V c main_v53 : S50000x64.Idx → Elt Ideal .f32) (funext fun a => Fin.ext ?_)
  match a with
  | ⟨0, _⟩ => show win2_1.index t (0 : Fin 2) * 2000 + 1 * (y 0).val = (i 0).val; rw [e0, hi0]; omega
  | ⟨1, _⟩ => show win2_1.index t (1 : Fin 2) * 64 + 1 * (y 1).val = (i 1).val; rw [e1, hi1]; omega

/-- Window 2's block at every point is its whole array. -/
theorem whole_2 (c : Dev nD) (t : Fin cfg2.N) :
    (iblk2 (F := Ideal) V c 2 t : Vec Ideal S64x64 .f32) = (V c main_v75 : S64x64.Idx → Elt Ideal .f32) := by
  obtain ⟨-, -, -, -, e0, e1, -⟩ := idx t
  funext y
  unfold iblk2
  rw [View.read_apply]
  show (V c main_v75 : S64x64.Idx → Elt Ideal .f32) _ = V c main_v75 y
  refine congrArg (V c main_v75 : S64x64.Idx → Elt Ideal .f32) (funext fun a => Fin.ext ?_)
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- Window 3's block at every point is its whole array. -/
theorem whole_3 (c : Dev nD) (t : Fin cfg2.N) :
    (iblk2 (F := Ideal) V c 3 t : Vec Ideal S64x64 .f32) = (V c main_v76 : S64x64.Idx → Elt Ideal .f32) := by
  obtain ⟨-, -, -, -, -, -, e0, e1, -⟩ := idx t
  funext y
  unfold iblk2
  rw [View.read_apply]
  show (V c main_v76 : S64x64.Idx → Elt Ideal .f32) _ = V c main_v76 y
  refine congrArg (V c main_v76 : S64x64.Idx → Elt Ideal .f32) (funext fun a => Fin.ext ?_)
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- Window 4's block at every point is its whole array (the bias row). -/
theorem whole_4 (c : Dev nD) (t : Fin cfg2.N) :
    (iblk2 (F := Ideal) V c 4 t : Vec Ideal S1x64 .f32) = (V c main_v77 : S1x64.Idx → Elt Ideal .f32) := by
  obtain ⟨-, -, -, -, -, -, -, -, e0, e1, -⟩ := idx t
  funext y
  unfold iblk2
  rw [View.read_apply]
  show (V c main_v77 : S1x64.Idx → Elt Ideal .f32) _ = V c main_v77 y
  refine congrArg (V c main_v77 : S1x64.Idx → Elt Ideal .f32) (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- The layer of the region's five input arrays, as whole arrays. -/
abbrev G (c : Dev nD) : S50000x64.Idx → EReal :=
  layer (N := 50000) (K := 64) (D := 64) (V c main_v74) (V c main_v53) (V c main_v75) (V c main_v76) (V c main_v77)

/-- What point t writes back is block t of the whole-array layer. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero zero_offsets2]
  simp only [View.ld_unit_zero (S := S2000x64) zero_offsets2, View.ld_unit_zero (S := S64x64) zero_offsets2,
    View.ld_unit_zero (S := S1x64) zero_offsets2]
  obtain ⟨-, -, -, -, -, -, -, -, -, -, e0, e1⟩ := idx t
  funext j
  show k2_pay1 (iblk2 V c 0 t) (iblk2 V c 1 t) (iblk2 V c 2 t) (iblk2 V c 3 t) (iblk2 V c 4 t) j
    = G V c (((cfg2.win 5).blk t).view.emb j)
  have r0 : ((((cfg2.win 5).blk t).view.emb j : S50000x64.Idx) 0).val = t.val * 2000 + (j 0).val := by
    show win2_5.index t (0 : Fin 2) * 2000 + 1 * (j 0).val = _; rw [e0]; omega
  have r1 : ((((cfg2.win 5).blk t).view.emb j : S50000x64.Idx) 1).val = (j 1).val := by
    show win2_5.index t (1 : Fin 2) * 64 + 1 * (j 1).val = _; rw [e1]; omega
  exact point (iblk2 V c 0 t) (iblk2 V c 1 t) (iblk2 V c 2 t) (iblk2 V c 3 t) (iblk2 V c 4 t)
    (V c main_v74) (V c main_v53) (V c main_v75) (V c main_v76) (V c main_v77) j (((cfg2.win 5).blk t).view.emb j)
    (fun k => rows_0 V c t _ _ r0 rfl) (fun k => rows_1 V c t _ _ r0 rfl)
    (whole_2 V c t) (whole_3 V c t) (whole_4 V c t) r1

/-- An index of the output array is in point t's block iff each coordinate is in the block's range on its axis. -/
theorem mem_blk (t : Fin cfg2.N) (i : S50000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v78).slice (win2_5.rect t)).set ↔ _
  rw [View.set_slice_whole, Rect.mem_set_unit]
  exact Iff.rfl

/-- Every index of the output array is in some point's block: row r is in the block of point r / 2000. -/
theorem cover (i : S50000x64.Idx) :
    ∃ t : Fin cfg2.N, (cfg2.win 5).flush t = true ∧ i ∈ ((cfg2.win 5).blk t).view.set := by
  have hi0 : (i 0).val < 50000 := idx2_lt0 i
  have hi1 : (i 1).val < 64 := idx2_lt1 i
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, e0, e1⟩ := idx t
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 64 ≤ (i 1).val ∧ (i 1).val < win2_5.index t (1 : Fin 2) * 64 + 64
    rw [e1]; omega

end Region2

/-- The output array region 2's pipeline leaves is the layer of its five input arrays as whole arrays. -/
theorem region2_array (V : (c : Dev nD) → (b : Ref sig .tc) → Buf (Elt Ideal) ((c : Thread nD τ).loc b)) (c : Dev nD) :
    (dat2 (F := Ideal) V c).arrAt 5 cfg2.N
      = layer (N := 50000) (K := 64) (D := 64) (V c main_v74) (V c main_v53) (V c main_v75) (V c main_v76) (V c main_v77) :=
  (dat2 (F := Ideal) V c).arrAt_eq_of_cover 5 (Region2.G V c) (fun t _ => Region2.flushed_eq V c t) Region2.cover

end Cert.KernelIdeal.HandValue

end
-- ==== Proof.Host0.lean ====
/-
  What the FIRST stretch of host operations leaves in the buffers the first layer's region reads, from any contents W
  of the buffers at its start: the neighbourhood mean of the input features over the edge list, the two weight
  matrices transposed (input axis first), the bias vector as a 1 × 64 row; the sources and the destinations, which the
  later stretches read again; and every argument read later left as it was.  Each is a computation through the
  stretch's operations in order: an operation's result at its own buffer is its function of its operands' contents,
  at any other buffer what was there.
-/
import proofs.«164951_j29798483100072_1_alg».proof.Proof.HostDefs

noncomputable section

namespace Cert.KernelIdeal.HandValue

open Idealize.ShloMosaic Idealize.ShloMosaic.TcCoe
open Cert.KernelIdeal Cert.KernelIdeal.Gen

variable (W : Valuation τ sig (Elt Ideal))

set_option maxHeartbeats 4000000 in
/-- The first region's first window: the neighbourhood mean of the input features. -/
theorem host0_v24 :
    StableHlo.after (hostOps0 (F := Ideal)) W (Proc.devRef .tc main_v24)
      = kmean (W (Proc.devRef .tc main_arg0)) (srcOf (W (Proc.devRef .tc main_arg1))) (dstOf (W (Proc.devRef .tc main_arg1))) := by
  after_results_simp <;> rfl

set_option maxHeartbeats 4000000 in
/-- The neighbour weights, transposed. -/
theorem host0_v25 :
    StableHlo.after (hostOps0 (F := Ideal)) W (Proc.devRef .tc main_v25)
      = transpose S64x64 [1, 0] (W (Proc.devRef .tc main_arg2)) transposes_S64x64_S64x64_1_0 := by
  after_results_simp <;> rfl

set_option maxHeartbeats 4000000 in
/-- The self weights, transposed. -/
theorem host0_v26 :
    StableHlo.after (hostOps0 (F := Ideal)) W (Proc.devRef .tc main_v26)
      = transpose S64x64 [1, 0] (W (Proc.devRef .tc main_arg4)) transposes_S64x64_S64x64_1_0 := by
  after_results_simp <;> rfl

set_option maxHeartbeats 4000000 in
/-- The bias vector as a row. -/
theorem host0_v27 :
    StableHlo.after (hostOps0 (F := Ideal)) W (Proc.devRef .tc main_v27)
      = shapeCast S1x64 (W (Proc.devRef .tc main_arg3)) shapeCasts_S64_S1x64 := by
  after_results_simp <;> rfl

set_option maxHeartbeats 4000000 in
/-- The sources. -/
theorem host0_v1 :
    StableHlo.after (hostOps0 (F := Ideal)) W (Proc.devRef .tc main_v1)
      = srcOf (W (Proc.devRef .tc main_arg1)) := by
  after_results_simp <;> rfl

set_option maxHeartbeats 4000000 in
/-- The destinations. -/
theorem host0_v3 :
    StableHlo.after (hostOps0 (F := Ideal)) W (Proc.devRef .tc main_v3)
      = dstOf (W (Proc.devRef .tc main_arg1)) := by
  after_results_simp <;> rfl

set_option maxHeartbeats 4000000 in
/-- No operation of the stretch writes `main_arg0`: it holds what it held. -/
theorem host0_keep_arg0 :
    StableHlo.after (hostOps0 (F := Ideal)) W (Proc.devRef .tc main_arg0)
      = W (Proc.devRef .tc main_arg0) := by
  after_results_simp <;> rfl

set_option maxHeartbeats 4000000 in
/-- No operation of the stretch writes `main_arg5`: it holds what it held. -/
theorem host0_keep_arg5 :
    StableHlo.after (hostOps0 (F := Ideal)) W (Proc.devRef .tc main_arg5)
      = W (Proc.devRef .tc main_arg5) := by
  after_results_simp <;> rfl

set_option maxHeartbeats 4000000 in
/-- No operation of the stretch writes `main_arg6`: it holds what it held. -/
theorem host0_keep_arg6 :
    StableHlo.after (hostOps0 (F := Ideal)) W (Proc.devRef .tc main_arg6)
      = W (Proc.devRef .tc main_arg6) := by
  after_results_simp <;> rfl

set_option maxHeartbeats 4000000 in
/-- No operation of the stretch writes `main_arg7`: it holds what it held. -/
theorem host0_keep_arg7 :
    StableHlo.after (hostOps0 (F := Ideal)) W (Proc.devRef .tc main_arg7)
      = W (Proc.devRef .tc main_arg7) := by
  after_results_simp <;> rfl

set_option maxHeartbeats 4000000 in
/-- No operation of the stretch writes `main_arg8`: it holds what it held. -/
theorem host0_keep_arg8 :
    StableHlo.after (hostOps0 (F := Ideal)) W (Proc.devRef .tc main_arg8)
      = W (Proc.devRef .tc main_arg8) := by
  after_results_simp <;> rfl

set_option maxHeartbeats 4000000 in
/-- No operation of the stretch writes `main_arg9`: it holds what it held. -/
theorem host0_keep_arg9 :
    StableHlo.after (hostOps0 (F := Ideal)) W (Proc.devRef .tc main_arg9)
      = W (Proc.devRef .tc main_arg9) := by
  after_results_simp <;> rfl

set_option maxHeartbeats 4000000 in
/-- No operation of the stretch writes `main_arg10`: it holds what it held. -/
theorem host0_keep_arg10 :
    StableHlo.after (hostOps0 (F := Ideal)) W (Proc.devRef .tc main_arg10)
      = W (Proc.devRef .tc main_arg10) := by
  after_results_simp <;> rfl

end Cert.KernelIdeal.HandValue
-- ==== Proof.Host1.lean ====
/-
  What the SECOND stretch of host operations leaves in the buffers the second layer's region reads, from any contents
  W of the buffers at its start: the neighbourhood mean of the first layer's output over the sources and destinations
  the first stretch left, the second layer's weight matrices transposed, its bias as a row; and the buffers read later
  left as they were.
-/
import proofs.«164951_j29798483100072_1_alg».proof.Proof.HostDefs

noncomputable section

namespace Cert.KernelIdeal.HandValue

open Idealize.ShloMosaic Idealize.ShloMosaic.TcCoe
open Cert.KernelIdeal Cert.KernelIdeal.Gen

variable (W : Valuation τ sig (Elt Ideal))

set_option maxHeartbeats 4000000 in
/-- The second region's first window: the neighbourhood mean of the first layer's output. -/
theorem host1_v49 :
    StableHlo.after (hostOps1 (F := Ideal)) W (Proc.devRef .tc main_v49)
      = kmean (W (Proc.devRef .tc main_v28)) (W (Proc.devRef .tc main_v1)) (W (Proc.devRef .tc main_v3)) := by
  after_results_simp <;> rfl

set_option maxHeartbeats 4000000 in
/-- The neighbour weights, transposed. -/
theorem host1_v50 :
    StableHlo.after (hostOps1 (F := Ideal)) W (Proc.devRef .tc main_v50)
      = transpose S64x64 [1, 0] (W (Proc.devRef .tc main_arg5)) transposes_S64x64_S64x64_1_0 := by
  after_results_simp <;> rfl

set_option maxHeartbeats 4000000 in
/-- The self weights, transposed. -/
theorem host1_v51 :
    StableHlo.after (hostOps1 (F := Ideal)) W (Proc.devRef .tc main_v51)
      = transpose S64x64 [1, 0] (W (Proc.devRef .tc main_arg7)) transposes_S64x64_S64x64_1_0 := by
  after_results_simp <;> rfl

set_option maxHeartbeats 4000000 in
/-- The bias vector as a row. -/
theorem host1_v52 :
    StableHlo.after (hostOps1 (F := Ideal)) W (Proc.devRef .tc main_v52)
      = shapeCast S1x64 (W (Proc.devRef .tc main_arg6)) shapeCasts_S64_S1x64 := by
  after_results_simp <;> rfl

set_option maxHeartbeats 4000000 in
/-- No operation of the stretch writes `main_v28`: it holds what it held. -/
theorem host1_keep_v28 :
    StableHlo.after (hostOps1 (F := Ideal)) W (Proc.devRef .tc main_v28)
      = W (Proc.devRef .tc main_v28) := by
  after_results_simp <;> rfl

set_option maxHeartbeats 4000000 in
/-- No operation of the stretch writes `main_v1`: it holds what it held. -/
theorem host1_keep_v1 :
    StableHlo.after (hostOps1 (F := Ideal)) W (Proc.devRef .tc main_v1)
      = W (Proc.devRef .tc main_v1) := by
  after_results_simp <;> rfl

set_option maxHeartbeats 4000000 in
/-- No operation of the stretch writes `main_v3`: it holds what it held. -/
theorem host1_keep_v3 :
    StableHlo.after (hostOps1 (F := Ideal)) W (Proc.devRef .tc main_v3)
      = W (Proc.devRef .tc main_v3) := by
  after_results_simp <;> rfl

set_option maxHeartbeats 4000000 in
/-- No operation of the stretch writes `main_arg8`: it holds what it held. -/
theorem host1_keep_arg8 :
    StableHlo.after (hostOps1 (F := Ideal)) W (Proc.devRef .tc main_arg8)
      = W (Proc.devRef .tc main_arg8) := by
  after_results_simp <;> rfl

set_option maxHeartbeats 4000000 in
/-- No operation of the stretch writes `main_arg9`: it holds what it held. -/
theorem host1_keep_arg9 :
    StableHlo.after (hostOps1 (F := Ideal)) W (Proc.devRef .tc main_arg9)
      = W (Proc.devRef .tc main_arg9) := by
  after_results_simp <;> rfl

set_option maxHeartbeats 4000000 in
/-- No operation of the stretch writes `main_arg10`: it holds what it held. -/
theorem host1_keep_arg10 :
    StableHlo.after (hostOps1 (F := Ideal)) W (Proc.devRef .tc main_arg10)
      = W (Proc.devRef .tc main_arg10) := by
  after_results_simp <;> rfl

end Cert.KernelIdeal.HandValue
-- ==== Proof.Host2.lean ====
/-
  What the THIRD stretch of host operations leaves in the buffers the third layer's region reads, from any contents W
  of the buffers at its start: the neighbourhood mean of the second layer's output over the sources and destinations
  the first stretch left, the third layer's weight matrices transposed, its bias as a row; and the second layer's
  output left as it was.
-/
import proofs.«164951_j29798483100072_1_alg».proof.Proof.HostDefs

noncomputable section

namespace Cert.KernelIdeal.HandValue

open Idealize.ShloMosaic Idealize.ShloMosaic.TcCoe
open Cert.KernelIdeal Cert.KernelIdeal.Gen

variable (W : Valuation τ sig (Elt Ideal))

set_option maxHeartbeats 4000000 in
/-- The third region's first window: the neighbourhood mean of the second layer's output. -/
theorem host2_v74 :
    StableHlo.after (hostOps2 (F := Ideal)) W (Proc.devRef .tc main_v74)
      = kmean (W (Proc.devRef .tc main_v53)) (W (Proc.devRef .tc main_v1)) (W (Proc.devRef .tc main_v3)) := by
  after_results_simp <;> rfl

set_option maxHeartbeats 4000000 in
/-- The neighbour weights, transposed. -/
theorem host2_v75 :
    StableHlo.after (hostOps2 (F := Ideal)) W (Proc.devRef .tc main_v75)
      = transpose S64x64 [1, 0] (W (Proc.devRef .tc main_arg8)) transposes_S64x64_S64x64_1_0 := by
  after_results_simp <;> rfl

set_option maxHeartbeats 4000000 in
/-- The self weights, transposed. -/
theorem host2_v76 :
    StableHlo.after (hostOps2 (F := Ideal)) W (Proc.devRef .tc main_v76)
      = transpose S64x64 [1, 0] (W (Proc.devRef .tc main_arg10)) transposes_S64x64_S64x64_1_0 := by
  after_results_simp <;> rfl

set_option maxHeartbeats 4000000 in
/-- The bias vector as a row. -/
theorem host2_v77 :
    StableHlo.after (hostOps2 (F := Ideal)) W (Proc.devRef .tc main_v77)
      = shapeCast S1x64 (W (Proc.devRef .tc main_arg9)) shapeCasts_S64_S1x64 := by
  after_results_simp <;> rfl

set_option maxHeartbeats 4000000 in
/-- No operation of the stretch writes `main_v53`: it holds what it held. -/
theorem host2_keep_v53 :
    StableHlo.after (hostOps2 (F := Ideal)) W (Proc.devRef .tc main_v53)
      = W (Proc.devRef .tc main_v53) := by
  after_results_simp <;> rfl

end Cert.KernelIdeal.HandValue
-- ==== Proof.KValue.lean ====
/-
  The idealized kernel's result array as the network of its arguments.

  The buffer contents at the six segment boundaries of @main are followed from the launch memory: a host stretch
  leaves in each buffer it writes the host operations' term of what it read and keeps every other buffer; a region
  leaves in its output array the layer of its five input arrays and keeps every other buffer.  Reading the result
  buffer at the last boundary back through the three layers gives the network of the argument arrays.
-/
import proofs.«164951_j29798483100072_1_alg».proof.Proof.Gen.KernelIdeal.Frame
import proofs.«164951_j29798483100072_1_alg».proof.Proof.KSpec
import proofs.«164951_j29798483100072_1_alg».proof.Proof.Region0
import proofs.«164951_j29798483100072_1_alg».proof.Proof.Region1
import proofs.«164951_j29798483100072_1_alg».proof.Proof.Region2
import proofs.«164951_j29798483100072_1_alg».proof.Proof.Host0
import proofs.«164951_j29798483100072_1_alg».proof.Proof.Host1
import proofs.«164951_j29798483100072_1_alg».proof.Proof.Host2

set_option maxRecDepth 16384

noncomputable section

namespace Cert.KernelIdeal.HandValue

open Idealize.ShloMosaic Idealize.ShloMosaic.TcCoe Idealize.SL.Sem
open Cert.KernelIdeal Cert.KernelIdeal.Gen Cert.LibSageLayer

variable (m : (ℓ : Loc nD τ sig) → Buf (Elt Ideal) ℓ) (ρ : Dev nD → PrngReg) (c : Dev nD)

/-! ## After the first host stretch -/

theorem w1_v24 : W1 m ρ c (Proc.devRef .tc main_v24) = kmean (m ((c : Thread nD τ).loc main_arg0)) (srcOf (m ((c : Thread nD τ).loc main_arg1))) (dstOf (m ((c : Thread nD τ).loc main_arg1))) := host0_v24 (W0 m ρ c)
theorem w1_arg0 : W1 m ρ c (Proc.devRef .tc main_arg0) = (m ((c : Thread nD τ).loc main_arg0)) := host0_keep_arg0 (W0 m ρ c)
theorem w1_v25 : W1 m ρ c (Proc.devRef .tc main_v25) = tr (m ((c : Thread nD τ).loc main_arg2)) := host0_v25 (W0 m ρ c)
theorem w1_v26 : W1 m ρ c (Proc.devRef .tc main_v26) = tr (m ((c : Thread nD τ).loc main_arg4)) := host0_v26 (W0 m ρ c)
theorem w1_v27 : W1 m ρ c (Proc.devRef .tc main_v27) = crow (m ((c : Thread nD τ).loc main_arg3)) := host0_v27 (W0 m ρ c)
theorem w1_v1 : W1 m ρ c (Proc.devRef .tc main_v1) = (srcOf (m ((c : Thread nD τ).loc main_arg1))) := host0_v1 (W0 m ρ c)
theorem w1_v3 : W1 m ρ c (Proc.devRef .tc main_v3) = (dstOf (m ((c : Thread nD τ).loc main_arg1))) := host0_v3 (W0 m ρ c)
theorem w1_arg5 : W1 m ρ c (Proc.devRef .tc main_arg5) = (m ((c : Thread nD τ).loc main_arg5)) := host0_keep_arg5 (W0 m ρ c)
theorem w1_arg6 : W1 m ρ c (Proc.devRef .tc main_arg6) = (m ((c : Thread nD τ).loc main_arg6)) := host0_keep_arg6 (W0 m ρ c)
theorem w1_arg7 : W1 m ρ c (Proc.devRef .tc main_arg7) = (m ((c : Thread nD τ).loc main_arg7)) := host0_keep_arg7 (W0 m ρ c)
theorem w1_arg8 : W1 m ρ c (Proc.devRef .tc main_arg8) = (m ((c : Thread nD τ).loc main_arg8)) := host0_keep_arg8 (W0 m ρ c)
theorem w1_arg9 : W1 m ρ c (Proc.devRef .tc main_arg9) = (m ((c : Thread nD τ).loc main_arg9)) := host0_keep_arg9 (W0 m ρ c)
theorem w1_arg10 : W1 m ρ c (Proc.devRef .tc main_arg10) = (m ((c : Thread nD τ).loc main_arg10)) := host0_keep_arg10 (W0 m ρ c)

/-! ## After the first region: the features after layer one -/

theorem w2_v28 : W2 m ρ c (Proc.devRef .tc main_v28) = (kH1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ?_
  rw [region0_array (V1 m ρ) c]
  show layerRelu (N := 50000) (K := 64) (D := 64) (W1 m ρ c (Proc.devRef .tc main_v24)) (W1 m ρ c (Proc.devRef .tc main_arg0)) (W1 m ρ c (Proc.devRef .tc main_v25))
    (W1 m ρ c (Proc.devRef .tc main_v26)) (W1 m ρ c (Proc.devRef .tc main_v27)) = _
  rw [w1_v24, w1_arg0, w1_v25, w1_v26, w1_v27]
  rfl
theorem w2_v1 : W2 m ρ c (Proc.devRef .tc main_v1) = (srcOf (m ((c : Thread nD τ).loc main_arg1))) := (W2_of_ne m ρ c main_v1 (by decide)).trans (w1_v1 m ρ c)
theorem w2_v3 : W2 m ρ c (Proc.devRef .tc main_v3) = (dstOf (m ((c : Thread nD τ).loc main_arg1))) := (W2_of_ne m ρ c main_v3 (by decide)).trans (w1_v3 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)

/-! ## After the second host stretch -/

theorem w3_v49 : W3 m ρ c (Proc.devRef .tc main_v49) = kmean (kH1 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  refine (host1_v49 (W2 m ρ c)).trans ?_
  rw [w2_v28, w2_v1, w2_v3]
theorem w3_v28 : W3 m ρ c (Proc.devRef .tc main_v28) = (kH1 (m ((c : Thread nD τ).loc main_arg0)) (m ((c : Thread nD τ).loc main_arg1)) (m ((c : Thread nD τ).loc main_arg2)) (m ((c : Thread nD τ).loc main_arg3)) (m ((c : Thread nD τ).loc main_arg4))) := (host1_keep_v28 (W2 m ρ c)).trans (w2_v28 m ρ c)
theorem w3_v50 : W3 m ρ c (Proc.devRef .tc main_v50) = tr (m ((c : Thread nD τ).loc main_arg5)) := (host1_v50 (W2 m ρ c)).trans (by rw [w2_arg5]; rfl)
theorem w3_v51 : W3 m ρ c (Proc.devRef .tc main_v51) = tr (m ((c : Thread nD τ).loc main_arg7)) := (host1_v51 (W2 m ρ c)).trans (by rw [w2_arg7]; rfl)
theorem w3_v52 : W3 m ρ c (Proc.devRef .tc main_v52) = crow (m ((c : Thread nD τ).loc main_arg6)) := (host1_v52 (W2 m ρ c)).trans (by rw [w2_arg6]; rfl)
theorem w3_v1 : W3 m ρ c (Proc.devRef .tc main_v1) = (srcOf (m ((c : Thread nD τ).loc main_arg1))) := (host1_keep_v1 (W2 m ρ c)).trans (w2_v1 m ρ c)
theorem w3_v3 : W3 m ρ c (Proc.devRef .tc main_v3) = (dstOf (m ((c : Thread nD τ).loc main_arg1))) := (host1_keep_v3 (W2 m ρ c)).trans (w2_v3 m ρ c)
theorem w3_arg8 : W3 m ρ c (Proc.devRef .tc main_arg8) = (m ((c : Thread nD τ).loc main_arg8)) := (host1_keep_arg8 (W2 m ρ c)).trans (w2_arg8 m ρ c)
theorem w3_arg9 : W3 m ρ c (Proc.devRef .tc main_arg9) = (m ((c : Thread nD τ).loc main_arg9)) := (host1_keep_arg9 (W2 m ρ c)).trans (w2_arg9 m ρ c)
theorem w3_arg10 : W3 m ρ c (Proc.devRef .tc main_arg10) = (m ((c : Thread nD τ).loc main_arg10)) := (host1_keep_arg10 (W2 m ρ c)).trans (w2_arg10 m ρ c)

/-! ## After the second region: the features after layer two -/

theorem w4_v53 : W4 m ρ c (Proc.devRef .tc main_v53) = (kH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W4_arr m ρ c 5).trans ?_
  rw [region1_array (V3 m ρ) c]
  show layerRelu (N := 50000) (K := 64) (D := 64) (W3 m ρ c (Proc.devRef .tc main_v49)) (W3 m ρ c (Proc.devRef .tc main_v28)) (W3 m ρ c (Proc.devRef .tc main_v50))
    (W3 m ρ c (Proc.devRef .tc main_v51)) (W3 m ρ c (Proc.devRef .tc main_v52)) = _
  rw [w3_v49, w3_v28, w3_v50, w3_v51, w3_v52]
  rfl
theorem w4_v1 : W4 m ρ c (Proc.devRef .tc main_v1) = (srcOf (m ((c : Thread nD τ).loc main_arg1))) := (W4_of_ne m ρ c main_v1 (by decide)).trans (w3_v1 m ρ c)
theorem w4_v3 : W4 m ρ c (Proc.devRef .tc main_v3) = (dstOf (m ((c : Thread nD τ).loc main_arg1))) := (W4_of_ne m ρ c main_v3 (by decide)).trans (w3_v3 m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)
theorem w4_arg10 : W4 m ρ c (Proc.devRef .tc main_arg10) = (m ((c : Thread nD τ).loc main_arg10)) := (W4_of_ne m ρ c main_arg10 (by decide)).trans (w3_arg10 m ρ c)

/-! ## After the third host stretch -/

theorem w5_v74 : W5 m ρ c (Proc.devRef .tc main_v74) = kmean (kH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (srcOf (m ((c : Thread nD τ).loc main_arg1))) (dstOf (m ((c : Thread nD τ).loc main_arg1))) := by
  refine (host2_v74 (W4 m ρ c)).trans ?_
  rw [w4_v53, w4_v1, w4_v3]
theorem w5_v53 : W5 m ρ c (Proc.devRef .tc main_v53) = (kH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := (host2_keep_v53 (W4 m ρ c)).trans (w4_v53 m ρ c)
theorem w5_v75 : W5 m ρ c (Proc.devRef .tc main_v75) = tr (m ((c : Thread nD τ).loc main_arg8)) := (host2_v75 (W4 m ρ c)).trans (by rw [w4_arg8]; rfl)
theorem w5_v76 : W5 m ρ c (Proc.devRef .tc main_v76) = tr (m ((c : Thread nD τ).loc main_arg10)) := (host2_v76 (W4 m ρ c)).trans (by rw [w4_arg10]; rfl)
theorem w5_v77 : W5 m ρ c (Proc.devRef .tc main_v77) = crow (m ((c : Thread nD τ).loc main_arg9)) := (host2_v77 (W4 m ρ c)).trans (by rw [w4_arg9]; rfl)

/-! ## After the third region: the result -/

/-- The result buffer at the last boundary is the network of the argument arrays. -/
theorem kvalue : W6 m ρ c (Proc.devRef .tc main_v78) = kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ?_
  rw [region2_array (V5 m ρ) c]
  show layer (N := 50000) (K := 64) (D := 64) (W5 m ρ c (Proc.devRef .tc main_v74)) (W5 m ρ c (Proc.devRef .tc main_v53)) (W5 m ρ c (Proc.devRef .tc main_v75))
    (W5 m ρ c (Proc.devRef .tc main_v76)) (W5 m ρ c (Proc.devRef .tc main_v77)) = _
  rw [w5_v74, w5_v53, w5_v75, w5_v76, w5_v77]
  rfl

end Cert.KernelIdeal.HandValue

end
-- ==== Proof.RefValue.lean ====
/-
  The reference's result as a three-layer network.

  The reference computes, three times over, the neighbourhood means of the current features (the rows gathered at the
  edges' sources, summed at the edges' destinations, each row divided by the destination's in-degree clamped below by
  one) and then the layer  (means · Wlᵀ + bias) + features · Wrᵀ, followed in the first two layers by the maximum with
  zero.  Its run's composed term is exactly that composition of host operations; each layer's host operations are the
  layer entry by entry (a dot_general is the plain sum over the contracted axis, the bias row repeated over the rows
  reads its entry j).
-/
import proofs.«164951_j29798483100072_1_alg».proof.Proof.Gen.ReferenceIdeal.Run
import proofs.«164951_j29798483100072_1_alg».proof.Proof.LibSageLayer

noncomputable section

namespace Cert.ReferenceIdeal.RefValue

open Idealize.ShloMosaic Idealize.ShloMosaic.TcCoe Idealize.ShloMosaic.ValueIdx
open Cert.ReferenceIdeal Cert.ReferenceIdeal.Gen Cert.LibSageLayer

/-- Row 0 of the edge list: the edges' sources. -/
def srcOf (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- Row 1 of the edge list: the edges' destinations. -/
def dstOf (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The neighbour sums: the feature rows gathered at the sources (a negative source counted from the end), added up
    at the destinations. -/
def aggSum (x : FVec Ideal S50000x64 .f32) (s d : (⟨S800000, .i32⟩ : BufTy).Contents (Elt Ideal)) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (Host.gather gather_S50000x64_S800000x1_S800000x64_1_0_n_n_0_1_164 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The in-degrees: a one added at every edge's destination. -/
def cnt (d : (⟨S800000, .i32⟩ : BufTy).Contents (Elt Ideal)) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- The neighbourhood means: each row of the sums divided by its in-degree clamped below by one. -/
def rmean (x : FVec Ideal S50000x64 .f32) (s d : (⟨S800000, .i32⟩ : BufTy).Contents (Elt Ideal)) : FVec Ideal S50000x64 .f32 :=
  Host.divf (F := Ideal) (aggSum x s d)
    (broadcastInDim S50000x64 ![0, 1] bcast_S50000x1_S50000x64_0_1 (broadcastInDim S50000x1 ![0] bcast_S50000_S50000x1_0
      (maximumf (cnt d) (broadcastInDim S50000 ![] bcast_S_S50000 (constant (F := Ideal) S_ .f32 0x3F800000#32)))))

/-- A weight matrix transposed. -/
def tr (w : FVec Ideal S64x64 .f32) : FVec Ideal S64x64 .f32 := transpose S64x64 [1, 0] w transposes_S64x64_S64x64_1_0

/-- A bias vector as a one-row array. -/
def brow (b : FVec Ideal S64 .f32) : FVec Ideal S1x64 .f32 := broadcastInDim S1x64 ![1] bcast_S64_S1x64_1 b

/-- One layer as the host spells it. -/
def hostLayer (a h : FVec Ideal S50000x64 .f32) (wl wr : FVec Ideal S64x64 .f32) (b : FVec Ideal S64 .f32) : FVec Ideal S50000x64 .f32 :=
  addf (addf (Host.dotGeneral (F := Ideal) dot_S50000x64_S64x64_S50000x64_1_0_0_1_n_n none a (tr wl))
      (broadcastInDim S50000x64 ![0, 1] bcast_S1x64_S50000x64_0_1 (brow b)))
    (Host.dotGeneral (F := Ideal) dot_S50000x64_S64x64_S50000x64_1_0_0_1_n_n none h (tr wr))

/-- … followed by the maximum with zero. -/
def hostLayerRelu (a h : FVec Ideal S50000x64 .f32) (wl wr : FVec Ideal S64x64 .f32) (b : FVec Ideal S64 .f32) : FVec Ideal S50000x64 .f32 :=
  maximumf (hostLayer a h wl wr b) (broadcastInDim S50000x64 ![] bcast_S_S50000x64 (constant (F := Ideal) S_ .f32 0x00000000#32))

/-- The network as the host spells it. -/
def hostNet (x : FVec Ideal S50000x64 .f32) (e : (⟨S2x800000, .i32⟩ : BufTy).Contents (Elt Ideal))
    (wl0 : FVec Ideal S64x64 .f32) (b0 : FVec Ideal S64 .f32) (wr0 : FVec Ideal S64x64 .f32)
    (wl1 : FVec Ideal S64x64 .f32) (b1 : FVec Ideal S64 .f32) (wr1 : FVec Ideal S64x64 .f32)
    (wl2 : FVec Ideal S64x64 .f32) (b2 : FVec Ideal S64 .f32) (wr2 : FVec Ideal S64x64 .f32) : FVec Ideal S50000x64 .f32 :=
  hostLayer
    (rmean (hostLayerRelu (rmean (hostLayerRelu (rmean x (srcOf e) (dstOf e)) x wl0 wr0 b0) (srcOf e) (dstOf e))
      (hostLayerRelu (rmean x (srcOf e) (dstOf e)) x wl0 wr0 b0) wl1 wr1 b1) (srcOf e) (dstOf e))
    (hostLayerRelu (rmean (hostLayerRelu (rmean x (srcOf e) (dstOf e)) x wl0 wr0 b0) (srcOf e) (dstOf e))
      (hostLayerRelu (rmean x (srcOf e) (dstOf e)) x wl0 wr0 b0) wl1 wr1 b1)
    wl2 wr2 b2

/-- The network over the layers entry by entry. -/
def specNet (x : FVec Ideal S50000x64 .f32) (e : (⟨S2x800000, .i32⟩ : BufTy).Contents (Elt Ideal))
    (wl0 : FVec Ideal S64x64 .f32) (b0 : FVec Ideal S64 .f32) (wr0 : FVec Ideal S64x64 .f32)
    (wl1 : FVec Ideal S64x64 .f32) (b1 : FVec Ideal S64 .f32) (wr1 : FVec Ideal S64x64 .f32)
    (wl2 : FVec Ideal S64x64 .f32) (b2 : FVec Ideal S64 .f32) (wr2 : FVec Ideal S64x64 .f32) : FVec Ideal S50000x64 .f32 :=
  layer (N := 50000) (K := 64) (D := 64)
    (rmean (layerRelu (N := 50000) (K := 64) (D := 64) (rmean (layerRelu (N := 50000) (K := 64) (D := 64) (rmean x (srcOf e) (dstOf e)) x (tr wl0) (tr wr0) (brow b0)) (srcOf e) (dstOf e))
      (layerRelu (N := 50000) (K := 64) (D := 64) (rmean x (srcOf e) (dstOf e)) x (tr wl0) (tr wr0) (brow b0)) (tr wl1) (tr wr1) (brow b1)) (srcOf e) (dstOf e))
    (layerRelu (N := 50000) (K := 64) (D := 64) (rmean (layerRelu (N := 50000) (K := 64) (D := 64) (rmean x (srcOf e) (dstOf e)) x (tr wl0) (tr wr0) (brow b0)) (srcOf e) (dstOf e))
      (layerRelu (N := 50000) (K := 64) (D := 64) (rmean x (srcOf e) (dstOf e)) x (tr wl0) (tr wr0) (brow b0)) (tr wl1) (tr wr1) (brow b1))
    (tr wl2) (tr wr2) (brow b2)

/-- The contraction's record is a plain matrix product's. -/
theorem plain_dot : Cert.LibPlainDot.Plain dot_S50000x64_S64x64_S50000x64_1_0_0_1_n_n := ⟨rfl, rfl, rfl, rfl, rfl, rfl⟩

theorem hostLayer_eq (a h : FVec Ideal S50000x64 .f32) (wl wr : FVec Ideal S64x64 .f32) (b : FVec Ideal S64 .f32) :
    hostLayer a h wl wr b = layer (N := 50000) (K := 64) (D := 64) a h (tr wl) (tr wr) (brow b) :=
  host_layer plain_dot bcast_S1x64_S50000x64_0_1 a h (tr wl) (tr wr) (brow b)

theorem hostLayerRelu_eq (a h : FVec Ideal S50000x64 .f32) (wl wr : FVec Ideal S64x64 .f32) (b : FVec Ideal S64 .f32) :
    hostLayerRelu a h wl wr b = layerRelu (N := 50000) (K := 64) (D := 64) a h (tr wl) (tr wr) (brow b) :=
  host_layerRelu plain_dot bcast_S1x64_S50000x64_0_1 bcast_S_S50000x64 a h (tr wl) (tr wr) (brow b)

theorem hostNet_eq_specNet (x : FVec Ideal S50000x64 .f32) (e : (⟨S2x800000, .i32⟩ : BufTy).Contents (Elt Ideal))
    (wl0 : FVec Ideal S64x64 .f32) (b0 : FVec Ideal S64 .f32) (wr0 : FVec Ideal S64x64 .f32)
    (wl1 : FVec Ideal S64x64 .f32) (b1 : FVec Ideal S64 .f32) (wr1 : FVec Ideal S64x64 .f32)
    (wl2 : FVec Ideal S64x64 .f32) (b2 : FVec Ideal S64 .f32) (wr2 : FVec Ideal S64x64 .f32) :
    hostNet x e wl0 b0 wr0 wl1 b1 wr1 wl2 b2 wr2 = specNet x e wl0 b0 wr0 wl1 b1 wr1 wl2 b2 wr2 := by
  unfold hostNet specNet
  simp only [hostLayer_eq, hostLayerRelu_eq]

set_option maxRecDepth 8192 in
/-- The run's composed term is the network of host operations. -/
theorem res_eq_hostNet (m : (ℓ : Loc nD τ sig) → Buf (Elt Ideal) ℓ) (c : Dev nD) :
    Cert.ReferenceIdeal.Value.res_main_v86 (F := Ideal) m c
      = hostNet (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.Value.res_main_v86
  rfl

end Cert.ReferenceIdeal.RefValue

end
-- ==== Proof.LibRecipMean.lean ====
/-
  Small facts about extended-real arithmetic and identity conversions that a mean over a clamped count needs; none
  mentions a program.

  * a product with the reciprocal of a NONZERO divisor is the quotient, at the infinities too (the quotient by d ≠ 0 is
    by definition the product with d⁻¹, and 1 / d = 1 · d⁻¹);
  * something clamped below by one is not zero; the f32 word 0x3F800000 denotes one;
  * the host quotient of two arrays read at an index; and rounding a table to bf16 before a gather, widening after,
    is the plain gather (both conversions are the identity on extended reals).
-/
import Idealize.ShloMosaic.Lib.ValueIdx
import Idealize.ShloMosaic.PureOps.Ideal.Laws

noncomputable section

namespace Cert.LibRecipMean

open Idealize.ShloMosaic Idealize.ShloMosaic.ValueIdx

/-- A product with the reciprocal of a nonzero divisor is the quotient. -/
theorem mul_recip_eq_div (s d : EReal) (hd : d ≠ 0) : s * Ideal.div 1 d = Ideal.div s d := by
  unfold Ideal.div
  rw [if_neg hd, if_neg hd, one_mul]

/-- The f32 word of one denotes one. -/
theorem ofBits_one_f32 : Ideal.ofBits .f32 0x3F800000#32 = 1 := by
  simp [Ideal.ofBits, Ideal.ieee]
  norm_cast
  norm_num

/-- Something clamped below by one is not zero. -/
theorem clamp_ne_zero (y : EReal) : max y 1 ≠ 0 := by
  intro h
  have h1 : (1 : EReal) ≤ max y 1 := le_max_right _ _
  rw [h] at h1
  exact absurd h1 (not_le.mpr (by exact_mod_cast (zero_lt_one : (0 : ℝ) < 1)))

/-- The host quotient of two arrays reads, at an index, the quotient of the entries. -/
theorem hostDivf_apply {s : Shape} {φ : FTy} (a b : FVec Ideal s φ) (i : s.Idx) : Host.divf a b i = Ideal.div (a i) (b i) := rfl

/-- Rounding a table before a gather and widening the gathered rows is the plain gather. -/
theorem gather_rounded {s si t : Shape} {w : Nat} (D : GatherDims s si t) (x : FVec Ideal s .f32) (idx : IVec si w)
    (h : FTy.bits .bf16 < FTy.bits .f32) :
    extf .f32 (Host.gather D (truncf .bf16 x h) idx) h = Host.gather D x idx := rfl

end Cert.LibRecipMean

end
-- ==== Proof.LibMeanLaw.lean ====
/-
  A mean taken two ways.

  Dividing every row of an array of sums by the row's count clamped below by one, and multiplying every row by the
  reciprocal of that clamped count, give the same array: over the extended reals the quotient by a nonzero d is the
  product with d⁻¹, and 1 / d is d⁻¹; a count clamped below by one is never zero.  No entry needs to be finite.
  Generic in the number of rows N and of columns K.
-/
import Idealize.ShloMosaic.PureOps.Ideal.Laws
import Idealize.ShloMosaic.Lib.ValueIdx
import Idealize.ShloMosaic.Lib.Pipeline.Value
import proofs.«164951_j29798483100072_1_alg».proof.Proof.LibJoinedRows
import proofs.«164951_j29798483100072_1_alg».proof.Proof.LibRecipMean

noncomputable section

namespace Cert.LibMeanLaw

open Idealize.ShloMosaic Idealize.ShloMosaic.ValueIdx

variable {N K : ℕ}

/-- Rows scaled by the reciprocal of the clamped count are rows divided by the clamped count. -/
theorem scale_by_recip_eq_div
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (s : FVec Ideal ⟨2, ![N, K]⟩ .f32) (d : FVec Ideal ⟨1, ![N]⟩ .f32) :
    mulf s (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf d (broadcastInDim ⟨1, ![N]⟩ ![] h0 (constant (F := Ideal) ⟨0, ![]⟩ .f32 0x3F800000#32))))))
      = Host.divf s (broadcastInDim ⟨2, ![N, K]⟩ ![0, 1] h2 (broadcastInDim ⟨2, ![N, 1]⟩ ![0] h1
          (maximumf d (broadcastInDim ⟨1, ![N]⟩ ![] h0 (constant (F := Ideal) ⟨0, ![]⟩ .f32 0x3F800000#32))))) := by
  funext i
  obtain ⟨n, j, rfl⟩ : ∃ (n : Fin N) (j : Fin K), i = ix2 n j := ⟨i 0, i 1, eq_ix2 i⟩
  rw [mulf_apply, Cert.LibRecipMean.hostDivf_apply, Cert.LibJoinedRows.bcast_col_rows_apply,
    Cert.LibJoinedRows.bcast_vec_col_apply, Cert.LibJoinedRows.bcast_col_rows_apply, Cert.LibJoinedRows.bcast_vec_col_apply,
    Cert.LibRecipMean.hostDivf_apply, maximumf_apply, Cert.LibJoinedRows.bcast_scalar_apply, constant_apply]
  simp only [Ideal.mulf_def, Ideal.maximumf_def, Ideal.ofBits_def, Cert.LibRecipMean.ofBits_one_f32]
  exact Cert.LibRecipMean.mul_recip_eq_div _ _ (Cert.LibRecipMean.clamp_ne_zero _)

end Cert.LibMeanLaw

end
-- ==== Proof.Bridge.lean ====
/-
  The two networks are one function of the arguments.

  The idealized kernel multiplies each row of the neighbour sums by the reciprocal of the in-degree clamped below by
  one; the reference divides the row by that clamped in-degree.  Over the extended reals a product with 1 / d is the
  quotient by d whenever d ≠ 0, and a count clamped below by one is never zero, so the two arrays of means are equal
  everywhere, with no finiteness needed.  The sums, the counts, the slices of the edge list and the transposed weights
  are the same host operations on both sides, and a bias vector cast to a one-row array is the vector broadcast along
  a new leading axis.  The layers are then the same function of equal arguments.
-/
import proofs.«164951_j29798483100072_1_alg».proof.Proof.KSpec
import proofs.«164951_j29798483100072_1_alg».proof.Proof.RefValue
import proofs.«164951_j29798483100072_1_alg».proof.Proof.LibMeanLaw

noncomputable section

namespace Cert.Bridge

open Idealize.ShloMosaic Idealize.ShloMosaic.TcCoe

theorem srcOf_eq (e : (⟨Cert.KernelIdeal.S2x800000, .i32⟩ : BufTy).Contents (Elt Ideal)) :
    Cert.KernelIdeal.HandValue.srcOf e = Cert.ReferenceIdeal.RefValue.srcOf e := rfl

theorem dstOf_eq (e : (⟨Cert.KernelIdeal.S2x800000, .i32⟩ : BufTy).Contents (Elt Ideal)) :
    Cert.KernelIdeal.HandValue.dstOf e = Cert.ReferenceIdeal.RefValue.dstOf e := rfl

theorem tr_eq (w : FVec Ideal Cert.KernelIdeal.S64x64 .f32) :
    Cert.KernelIdeal.HandValue.tr w = Cert.ReferenceIdeal.RefValue.tr w := rfl

/-- The bias row: a cast on one side, a broadcast along a new leading axis on the other. -/
theorem crow_eq (b : FVec Ideal Cert.KernelIdeal.S64 .f32) :
    Cert.KernelIdeal.HandValue.crow b = Cert.ReferenceIdeal.RefValue.brow b :=
  (Cert.LibSageLayer.bcast_vec_row_eq_shapeCast (D := 64) Cert.ReferenceIdeal.Gen.bcast_S64_S1x64_1
    Cert.KernelIdeal.Gen.shapeCasts_S64_S1x64 b).symm

/-- The neighbour sums are the same host operations. -/
theorem aggSum_eq (x : FVec Ideal Cert.KernelIdeal.S50000x64 .f32)
    (s d : (⟨Cert.KernelIdeal.S800000, .i32⟩ : BufTy).Contents (Elt Ideal)) :
    Cert.KernelIdeal.HandValue.aggSum x s d = Cert.ReferenceIdeal.RefValue.aggSum x s d := rfl

/-- The in-degrees are the same host operations. -/
theorem cnt_eq (d : (⟨Cert.KernelIdeal.S800000, .i32⟩ : BufTy).Contents (Elt Ideal)) :
    Cert.KernelIdeal.HandValue.cnt d = Cert.ReferenceIdeal.RefValue.cnt d := rfl

/-- The means: rows times the reciprocal of the clamped in-degree are rows divided by it. -/
theorem kmean_eq (x : FVec Ideal Cert.KernelIdeal.S50000x64 .f32)
    (s d : (⟨Cert.KernelIdeal.S800000, .i32⟩ : BufTy).Contents (Elt Ideal)) :
    Cert.KernelIdeal.HandValue.kmean x s d = Cert.ReferenceIdeal.RefValue.rmean x s d := by
  unfold Cert.KernelIdeal.HandValue.kmean Cert.ReferenceIdeal.RefValue.rmean
  rw [← aggSum_eq, ← cnt_eq]
  exact Cert.LibMeanLaw.scale_by_recip_eq_div (N := 50000) (K := 64) _ _ _ _ _

/-- The idealized kernel's network is the reference's. -/
theorem kNet_eq_specNet (x : FVec Ideal Cert.KernelIdeal.S50000x64 .f32) (e : (⟨Cert.KernelIdeal.S2x800000, .i32⟩ : BufTy).Contents (Elt Ideal))
    (wl0 : FVec Ideal Cert.KernelIdeal.S64x64 .f32) (b0 : FVec Ideal Cert.KernelIdeal.S64 .f32) (wr0 : FVec Ideal Cert.KernelIdeal.S64x64 .f32)
    (wl1 : FVec Ideal Cert.KernelIdeal.S64x64 .f32) (b1 : FVec Ideal Cert.KernelIdeal.S64 .f32) (wr1 : FVec Ideal Cert.KernelIdeal.S64x64 .f32)
    (wl2 : FVec Ideal Cert.KernelIdeal.S64x64 .f32) (b2 : FVec Ideal Cert.KernelIdeal.S64 .f32) (wr2 : FVec Ideal Cert.KernelIdeal.S64x64 .f32) :
    Cert.KernelIdeal.HandValue.kNet x e wl0 b0 wr0 wl1 b1 wr1 wl2 b2 wr2
      = Cert.ReferenceIdeal.RefValue.specNet x e wl0 b0 wr0 wl1 b1 wr1 wl2 b2 wr2 := by
  unfold Cert.KernelIdeal.HandValue.kNet Cert.KernelIdeal.HandValue.kH2 Cert.KernelIdeal.HandValue.kH1
    Cert.ReferenceIdeal.RefValue.specNet
  simp only [kmean_eq, srcOf_eq, dstOf_eq, tr_eq, crow_eq]

end Cert.Bridge

end
-- ==== Proof.lean ====
/-
  A three-layer mean-aggregating graph network: the tiled kernel against its plain reference, over the extended reals.

  Each layer forms, for every node, the mean of its in-neighbours' feature rows (the rows gathered at the edges'
  sources and summed at their destinations, over the in-degree clamped below by one) and then
  (means · Wlᵀ + bias) + features · Wrᵀ, followed in the first two layers by the maximum with zero.  The kernel's
  program computes the means on the host as  sums · (1 / clamped degree)  and each layer's dense part in a tiled region
  of 25 blocks of 2000 rows (two matrix products of operands rounded to a narrower format, which at the ideal reading
  is the identity); the reference computes the means as  sums / clamped degree  and the dense part by whole-array
  contractions.  A product with 1 / d is the quotient by d for every d ≠ 0 on the extended reals, and a degree clamped
  below by one is not zero, so the two programs compute one function of the arguments and no finiteness is used.
  The idealization rewrote no operation, so what it must preserve is trivial; the three frames are the generated frame
  runs.
-/
import proofs.«164951_j29798483100072_1_alg».proof.Defs
import proofs.«164951_j29798483100072_1_alg».proof.Proof.Gen.Kernel
import proofs.«164951_j29798483100072_1_alg».proof.Proof.Gen.Kernel.Frame
import proofs.«164951_j29798483100072_1_alg».proof.Proof.Gen.KernelIdeal
import proofs.«164951_j29798483100072_1_alg».proof.Proof.Gen.KernelIdeal.Frame
import proofs.«164951_j29798483100072_1_alg».proof.Proof.Gen.ReferenceIdeal
import proofs.«164951_j29798483100072_1_alg».proof.Proof.Gen.ReferenceIdeal.Run
import proofs.«164951_j29798483100072_1_alg».proof.Proof.Gen.Pre_finite_inputs
import proofs.«164951_j29798483100072_1_alg».proof.Proof.KRun
import proofs.«164951_j29798483100072_1_alg».proof.Proof.KValue
import proofs.«164951_j29798483100072_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network of the (agreeing) argument arrays in their result. -/
theorem algebraic : Cert.algebraic_KernelIdeal_ReferenceIdeal := by
  intro m ρ m' ρ' _ hagree
  refine ⟨fun c => Cert.KernelIdeal.HandValue.kNet (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.HandValue.kvalue m ρ c), (h c).2⟩)
      (Cert.KernelIdeal.HandValue.run_out m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.RefValue.res_eq_hostNet, Cert.ReferenceIdeal.RefValue.hostNet_eq_specNet,
      h0, h1, h2, h3, h4, h5, h6, h7, h8, h9, h10]
    exact (Cert.Bridge.kNet_eq_specNet _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
